-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x128 .f32) (main_arg9 : FVec F S1 .f32) (main_v33 : IVec S_ 1) : IVec S_ 1 :=
  let main_v34 : FVec F S1x128 .f32 := Host.absf main_arg8
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S384x128 .f32) (main_arg6 : FVec F S384 .f32) (main_arg7 : FVec F S384 .f32) (main_arg8 : FVec F S1x128 .f32) (main_arg9 : FVec F S1 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S600000 .f32) (main_arg3 : FVec F S128x128 .f32) (main_arg4 : FVec F S384x128 .f32) (main_arg5 : FVec F S384x128 .f32) (main_arg6 : FVec F S384 .f32) (main_arg7 : FVec F S384 .f32) (main_arg8 : FVec F S1x128 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S5000x128 : Shape := ⟨2, ![5000, 128]⟩
abbrev S128x384 : Shape := ⟨2, ![128, 384]⟩
abbrev S1x384 : Shape := ⟨2, ![1, 384]⟩
abbrev S50000 : Shape := ⟨1, ![50000]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S50000x1 : Shape := ⟨2, ![50000, 1]⟩
abbrev S5000x1 : Shape := ⟨2, ![5000, 1]⟩
abbrev S5000 : Shape := ⟨1, ![5000]⟩
abbrev S1x1 : Shape := ⟨2, ![1, 1]⟩

abbrev nBuf : Space → Nat
  | .hbm => 70
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S1x128, .f32⟩
  | .hbm, ⟨9, _⟩ => ⟨S1, .f32⟩
  | .hbm, ⟨10, _⟩ => ⟨S50000x128, .f32⟩
  | .hbm, ⟨11, _⟩ => ⟨S50000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S1x600000, .i32⟩
  | .hbm, ⟨16, _⟩ => ⟨S600000, .i32⟩
  | .hbm, ⟨17, _⟩ => ⟨S650000, .i32⟩
  | .hbm, ⟨18, _⟩ => ⟨S_, .f32⟩
  | .hbm, ⟨19, _⟩ => ⟨S50000, .f32⟩
  | .hbm, ⟨20, _⟩ => ⟨S650000, .f32⟩
  | .hbm, ⟨21, _⟩ => ⟨S_, .f32⟩
  | .hbm, ⟨22, _⟩ => ⟨S50000, .f32⟩
  | .hbm, ⟨23, _⟩ => ⟨S650000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S650000, .i32⟩
  | .hbm, ⟨35, _⟩ => ⟨S650000, .i1⟩
  | .hbm, ⟨36, _⟩ => ⟨S_, .i32⟩
  | .hbm, ⟨37, _⟩ => ⟨S650000, .i32⟩
  | .hbm, ⟨38, _⟩ => ⟨S650000, .i32⟩
  | .hbm, ⟨39, _⟩ => ⟨S650000, .i32⟩
  | .hbm, ⟨40, _⟩ => ⟨S650000x1, .i32⟩
  | .hbm, ⟨41, _⟩ => ⟨S650000, .f32⟩
  | .hbm, ⟨42, _⟩ => ⟨S650000, .f32⟩
  | .hbm, ⟨43, _⟩ => ⟨S_, .i32⟩
  | .hbm, ⟨44, _⟩ => ⟨S650000, .i32⟩
  | .hbm, ⟨45, _⟩ => ⟨S650000, .i1⟩
  | .hbm, ⟨46, _⟩ => ⟨S_, .i32⟩
  | .hbm, ⟨47, _⟩ => ⟨S650000, .i32⟩
  | .hbm, ⟨48, _⟩ => ⟨S650000, .i32⟩
  | .hbm, ⟨49, _⟩ => ⟨S650000, .i32⟩
  | .hbm, ⟨50, _⟩ => ⟨S650000x1, .i32⟩
  | .hbm, ⟨51, _⟩ => ⟨S650000, .f32⟩
  | .hbm, ⟨52, _⟩ => ⟨S650000, .f32⟩
  | .hbm, ⟨53, _⟩ => ⟨S_, .i32⟩
  | .hbm, ⟨54, _⟩ => ⟨S650000, .i32⟩
  | .hbm, ⟨55, _⟩ => ⟨S650000, .i1⟩
  | .hbm, ⟨56, _⟩ => ⟨S_, .i32⟩
  | .hbm, ⟨57, _⟩ => ⟨S650000, .i32⟩
  | .hbm, ⟨58, _⟩ => ⟨S650000, .i32⟩
  | .hbm, ⟨59, _⟩ => ⟨S650000, .i32⟩
  | .hbm, ⟨60, _⟩ => ⟨S650000x1, .i32⟩
  | .hbm, ⟨61, _⟩ => ⟨S650000x128, .f32⟩
  | .hbm, ⟨62, _⟩ => ⟨S650000x1, .f32⟩
  | .hbm, ⟨63, _⟩ => ⟨S650000x128, .f32⟩
  | .hbm, ⟨64, _⟩ => ⟨S650000x128, .f32⟩
  | .hbm, ⟨65, _⟩ => ⟨S_, .f32⟩
  | .hbm, ⟨66, _⟩ => ⟨S50000x128, .f32⟩
  | .hbm, ⟨67, _⟩ => ⟨S650000x1, .i32⟩
  | .hbm, ⟨68, _⟩ => ⟨S50000x128, .f32⟩
  | .hbm, ⟨69, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S384x128, .f32⟩
  | .local _ .vmem, ⟨4, _⟩ => ⟨S384x128, .f32⟩
  | .local _ .vmem, ⟨5, _⟩ => ⟨S384, .f32⟩
  | .local _ .vmem, ⟨6, _⟩ => ⟨S384, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1, .f32⟩
  | .local _ .vmem, ⟨14, _⟩ => ⟨S5000x1, .f32⟩
  | .local _ .vmem, ⟨15, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S128x128_S128x128_0_0 : ∀ a, (![0, 0] : Fin 2 → Nat) a + S128x128.size a ≤ S128x128.size a
  h_S128x128 : 0 < S128x128.numel
  inb_S384x128_S384x128_0_0 : ∀ a, (![0, 0] : Fin 2 → Nat) a + S384x128.size a ≤ S384x128.size a
  h_S384x128 : 0 < S384x128.numel
  inb_S384_S384_0 : ∀ a, (![0] : Fin 1 → Nat) a + S384.size a ≤ S384.size a
  h_S384 : 0 < S384.numel
  transposes_S384x128_p1_0_S128x384 : S384x128.Transposes [1, 0] S128x384
  shapeCasts_S384_S1x384 : S384.ShapeCasts S1x384
  broadcasts_S1x384_S128x384 : S1x384.Broadcasts S128x384
  slices_S128x384_o0_0_S128x128 : S128x384.Slices ![0, 0] S128x128
  slices_S128x384_o0_128_S128x128 : S128x384.Slices ![0, 128] S128x128
  slices_S128x384_o0_256_S128x128 : S128x384.Slices ![0, 256] S128x128
  shapeCasts_S128x128_S128x128 : S128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  transposes_S128x128_p1_0_S128x128 : S128x128.Transposes [1, 0] S128x128
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  inb_S1_S1_0 : ∀ a, (![0] : Fin 1 → Nat) a + S1.size a ≤ S1.size a
  h_S1 : 0 < S1.numel
  broadcasts_S1x128_S5000x128 : S1x128.Broadcasts S5000x128
  reduces_S5000x128_S5000 : S5000x128.Reduces [1] S5000
  shapeCasts_S5000_S5000x1 : S5000.ShapeCasts S5000x1
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S128x128_S128x384_S128x384_1_0_0_1_n_n_wf : DotDims.WF S128x128 S128x384 S128x384 [1] [0] [0] [1] [] []
  dot_S5000x128_S128x128_S5000x128_1_0_0_1_n_n_wf : DotDims.WF S5000x128 S128x128 S5000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x128.size a ≤ S384x128.size a
  hwx0_2 : ∀ i : grid0.Coords, EltTy.bits .f32 = 32 ∨ (Rect.block (s := S384x128) S384x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384.size a ≤ S384.size a
  hwx0_5 : ∀ i : grid0.Coords, EltTy.bits .f32 = 32 ∨ (Rect.block (s := S384) S384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)

variable [Facts₀]

def dot_S128x128_S128x384_S128x384_1_0_0_1_n_n : DotDims S128x128 S128x384 S128x384 where
  lhsContracting := [1]
  rhsContracting := [0]
  lhsNonContracting := [0]
  rhsNonContracting := [1]
  lhsBatch := []
  rhsBatch := []
  wf := dot_S128x128_S128x384_S128x384_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S384x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S128x384 : Shape := ⟨2, ![128, 384]⟩
abbrev S1x384 : Shape := ⟨2, ![1, 384]⟩
abbrev S_ : Shape := ⟨0, ![]⟩
abbrev S50000 : Shape := ⟨1, ![50000]⟩
abbrev S1x600000 : Shape := ⟨2, ![1, 600000]⟩
abbrev S650000 : Shape := ⟨1, ![650000]⟩
abbrev S650000x1 : Shape := ⟨2, ![650000, 1]⟩
abbrev S650000x128 : Shape := ⟨2, ![650000, 128]⟩
abbrev S128x1 : Shape := ⟨2, ![128, 1]⟩
abbrev S50000x1 : Shape := ⟨2, ![50000, 1]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S1x128, .f32⟩
  | .hbm, ⟨9, _⟩ => ⟨S1, .f32⟩
  | .hbm, ⟨10, _⟩ => ⟨S128x384, .f32⟩
  | .hbm, ⟨11, _⟩ => ⟨S128x384, .f32⟩
  | .hbm, ⟨12, _⟩ => ⟨S1x384, .f32⟩
  | .hbm, ⟨13, _⟩ => ⟨S128x384, .f32⟩
  | .hbm, ⟨14, _⟩ => ⟨S128x384, .f32⟩
  | .hbm, ⟨15, _⟩ => ⟨S128x384, .f32⟩
  | .hbm, ⟨16, _⟩ => ⟨S128x384, .f32⟩
  | .hbm, ⟨17, _⟩ => ⟨S1x384, .f32⟩
  | .hbm, ⟨18, _⟩ => ⟨S128x384, .f32⟩
  | .hbm, ⟨19, _⟩ => ⟨S128x384, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S50000, .i32⟩
  | .hbm, ⟨54, _⟩ => ⟨S1x600000, .i32⟩
  | .hbm, ⟨55, _⟩ => ⟨S600000, .i32⟩
  | .hbm, ⟨56, _⟩ => ⟨S650000, .i32⟩
  | .hbm, ⟨57, _⟩ => ⟨S1x600000, .i32⟩
  | .hbm, ⟨58, _⟩ => ⟨S600000, .i32⟩
  | .hbm, ⟨59, _⟩ => ⟨S650000, .i32⟩
  | .hbm, ⟨60, _⟩ => ⟨S_, .f32⟩
  | .hbm, ⟨61, _⟩ => ⟨S50000, .f32⟩
  | .hbm, ⟨62, _⟩ => ⟨S650000, .f32⟩
  | .hbm, ⟨63, _⟩ => ⟨S_, .f32⟩
  | .hbm, ⟨64, _⟩ => ⟨S50000, .f32⟩
  | .hbm, ⟨65, _⟩ => ⟨S650000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .i1⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S_, .i32⟩
  | .hbm, ⟨76, _⟩ => ⟨S650000, .i32⟩
  | .hbm, ⟨77, _⟩ => ⟨S650000, .i1⟩
  | .hbm, ⟨78, _⟩ => ⟨S_, .i32⟩
  | .hbm, ⟨79, _⟩ => ⟨S650000, .i32⟩
  | .hbm, ⟨80, _⟩ => ⟨S650000, .i32⟩
  | .hbm, ⟨81, _⟩ => ⟨S650000, .i32⟩
  | .hbm, ⟨82, _⟩ => ⟨S650000x1, .i32⟩
  | .hbm, ⟨83, _⟩ => ⟨S650000, .f32⟩
  | .hbm, ⟨84, _⟩ => ⟨S650000, .f32⟩
  | .hbm, ⟨85, _⟩ => ⟨S_, .i32⟩
  | .hbm, ⟨86, _⟩ => ⟨S650000, .i32⟩
  | .hbm, ⟨87, _⟩ => ⟨S650000, .i1⟩
  | .hbm, ⟨88, _⟩ => ⟨S_, .i32⟩
  | .hbm, ⟨89, _⟩ => ⟨S650000, .i32⟩
  | .hbm, ⟨90, _⟩ => ⟨S650000, .i32⟩
  | .hbm, ⟨91, _⟩ => ⟨S650000, .i32⟩
  | .hbm, ⟨92, _⟩ => ⟨S650000x1, .i32⟩
  | .hbm, ⟨93, _⟩ => ⟨S650000, .f32⟩
  | .hbm, ⟨94, _⟩ => ⟨S650000, .f32⟩
  | .hbm, ⟨95, _⟩ => ⟨S128x128, .f32⟩
  | .hbm, ⟨96, _⟩ => ⟨S50000x128, .f32⟩
  | .hbm, ⟨97, _⟩ => ⟨S_, .i32⟩
  | .hbm, ⟨98, _⟩ => ⟨S650000, .i32⟩
  | .hbm, ⟨99, _⟩ => ⟨S650000, .i1⟩
  | .hbm, ⟨100, _⟩ => ⟨S_, .i32⟩
  | .hbm, ⟨101, _⟩ => ⟨S650000, .i32⟩
  | .hbm, ⟨102, _⟩ => ⟨S650000, .i32⟩
  | .hbm, ⟨103, _⟩ => ⟨S650000, .i32⟩
  | .hbm, ⟨104, _⟩ => ⟨S650000x1, .i32⟩
  | .hbm, ⟨105, _⟩ => ⟨S650000x128, .f32⟩
  | .hbm, ⟨106, _⟩ => ⟨S650000x1, .f32⟩
  | .hbm, ⟨107, _⟩ => ⟨S650000x128, .f32⟩
  | .hbm, ⟨108, _⟩ => ⟨S650000x128, .f32⟩
  | .hbm, ⟨109, _⟩ => ⟨S_, .f32⟩
  | .hbm, ⟨110, _⟩ => ⟨S50000x128, .f32⟩
  | .hbm, ⟨111, _⟩ => ⟨S650000x1, .i32⟩
  | .hbm, ⟨112, _⟩ => ⟨S50000x128, .f32⟩
  | .hbm, ⟨113, _⟩ => ⟨S_, .f32⟩
  | .hbm, ⟨114, _⟩ => ⟨S50000x128, .f32⟩
  | .hbm, ⟨115, _⟩ => ⟨S50000x128, .f32⟩
  | .hbm, ⟨116, _⟩ => ⟨S128x1, .f32⟩
  | .hbm, ⟨117, _⟩ => ⟨S50000x1, .f32⟩
  | .hbm, ⟨118, _⟩ => ⟨S1x1, .f32⟩
  | .hbm, ⟨119, _⟩ => ⟨S50000x1, .f32⟩
  | .hbm, ⟨120, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_call0_v0 : Ref sig .tc := ⟨.hbm, 72, rfl⟩
abbrev main_call0_v1 : Ref sig .tc := ⟨.hbm, 73, rfl⟩
abbrev main_v53 : Ref sig .tc := ⟨.hbm, 74, rfl⟩
abbrev main_c : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_9 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_11 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_13 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_call1_cst : Ref sig .tc := ⟨.hbm, 113, rfl⟩
abbrev main_call1_v0 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]

class Facts₀ : Prop where
  transposes_S384x128_S128x384_1_0 : S384x128.Transposes [1, 0] S128x384
  bcast_S384_S1x384_1 : S384.BroadcastsInDim S1x384 (![1] : Fin 1 → Fin S1x384.rank)
  bcast_S1x384_S128x384_0_1 : S1x384.BroadcastsInDim S128x384 (![0, 1] : Fin 2 → Fin S128x384.rank)
  slices_S128x384_S128x128_0_0 : S128x384.Slices ![0, 0] S128x128
  slices_S128x384_S128x128_0_128 : S128x384.Slices ![0, 128] S128x128
  slices_S128x384_S128x128_0_256 : S128x384.Slices ![0, 256] S128x128
  bcast_S_S128x128 : S_.BroadcastsInDim S128x128 (![] : Fin 0 → Fin S128x128.rank)
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  transposes_S128x128_S128x128_1_0 : S128x128.Transposes [1, 0] S128x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S128x128_S128x384_S128x384_1_0_0_1_n_n_wf : DotDims.WF S128x128 S128x384 S128x384 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x1_S50000x1_1_0_0_1_n_n_wf : DotDims.WF S50000x128 S128x1 S50000x1 [1] [0] [0] [1] [] []

variable [Facts₀]

def dot_S128x128_S128x384_S128x384_1_0_0_1_n_n : DotDims S128x128 S128x384 S128x384 where
  lhsContracting := [1]
  rhsContracting := [0]
  lhsNonContracting := [0]
  rhsNonContracting := [1]
  lhsBatch := []
  rhsBatch := []
  wf := dot_S128x128_S128x384_S128x384_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Body0.lean ====
/-
  The first region (the first pallas_call) at the buffer contents `V` it is entered from: ten grid points, point `t`
  taking rows 5000 t .. 5000 t + 4999 of the node features and, whole, the weight matrix, the two gate matrices and
  the two gate biases. At the first point the body evolves the weight by one gated-recurrent step and stores it in a
  scratch buffer of its own, which no later point stores into; at every point it multiplies its block of the features
  by the transpose of what the scratch holds. So the scratch holds anything before the first point and the evolved
  weight of the five resident blocks ever after, and every point's output block is the product of its feature block
  with that one matrix.
-/
import proofs.«139222_j88948772700690_1_alg».proof.Proof.Gen.KernelIdeal.Launch
import proofs.«139222_j88948772700690_1_alg».proof.Proof.Gen.KernelIdeal.Skeleton
import proofs.«139222_j88948772700690_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-block rectangles: what a store through one leaves, what a load through one reads -/

theorem hz2 : (![0, 0] : Fin 2 → Nat) = fun _ => 0 := by funext a; fin_cases a <;> rfl
theorem hz1 : (![0] : Fin 1 → Nat) = fun _ => 0 := by funext a; fin_cases a; rfl

section Whole

variable {Val : EltTy → Type} [∀ e, Nonempty (Val e)] {sg : RefSig} {κ : Kind} {sp : Space} {S : Shape} {e : EltTy}

/-- One store through the whole block leaves its payload, whatever the buffer held. -/
theorem read_writes_whole (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- A load through the whole block reads the buffer's contents. -/
theorem readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

end Whole

/-- The body's branch: taken at the grid's first point only. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-! ## The body's two runs -/

set_option maxHeartbeats 4000000 in
/-- At the first point: from the six input blocks, the output block and the scratch at anything, the body ends with
    the scratch at the evolved weight and the output block at the feature block times its transpose. -/
theorem run0_first (c : Dev nD) (E : Set ℕ) (i : grid0.Coords) (hc : cond0 i)
    (arg1 : Memref sig .tc .vmem S5000x128 .f32) (harg1 : arg1.IsWhole) (arg2 : Memref sig .tc .vmem S128x128 .f32) (harg2 : arg2.IsWhole)
    (arg3 : Memref sig .tc .vmem S384x128 .f32) (harg3 : arg3.IsWhole) (arg4 : Memref sig .tc .vmem S384x128 .f32) (harg4 : arg4.IsWhole)
    (arg5 : Memref sig .tc .vmem S384 .f32) (harg5 : arg5.IsWhole) (arg6 : Memref sig .tc .vmem S384 .f32) (harg6 : arg6.IsWhole)
    (arg7 : Memref sig .tc .vmem S5000x128 .f32) (harg7 : arg7.IsWhole) (arg8 : Memref sig .tc .vmem S128x128 .f32) (harg8 : arg8.IsWhole)
    (x0 : Vec F S5000x128 .f32) (x1 : Vec F S128x128 .f32) (x2 x3 : Vec F S384x128 .f32) (x4 x5 : Vec F S384 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k0_pay2 (k0_pay1 x1 x2 x3 x4 x5) x0)
            ∗ owns (c : Thread nD τ) arg8 fullShare (k0_pay1 x1 x2 x3 x4 x5)) -∗ K ⟨⟩))
      ⊢ wp frame (wpE (defs₀ (F := F)) Variants.none c none) E (cc0__gru_evolve_and_matmul_kernel i arg1 harg1 arg2 harg2 arg3 harg3 arg4 harg4 arg5 harg5 arg6 harg6 arg7 harg7 arg8 harg8) K := by
  simp only [cc0__gru_evolve_and_matmul_kernel_eq_skeleton]; unfold cc0__gru_evolve_and_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_writes_whole (S := S5000x128) _ _ hz2, View.readCov_unit_zero (S := S128x128) _ hz2]
    simp only [readAt_whole (S := S5000x128) _ _ hz2, readAt_whole (S := S128x128) _ _ hz2, readAt_whole (S := S384x128) _ _ hz2, readAt_whole (S := S384) _ _ hz1]
  · iexists _; isplitr
    swap; · iexact H7
    ipureintro
    sl_unfold_run_names
    rw [read_writes_whole (S := S128x128) _ _ hz2]
    simp only [readAt_whole (S := S5000x128) _ _ hz2, readAt_whole (S := S128x128) _ _ hz2, readAt_whole (S := S384x128) _ _ hz2, readAt_whole (S := S384) _ _ hz1]

set_option maxHeartbeats 4000000 in
/-- At a later point: the scratch at `s` is read and kept, and the output block ends at the feature block times its
    transpose. -/
theorem run0_later (c : Dev nD) (E : Set ℕ) (i : grid0.Coords) (hc : ¬cond0 i)
    (arg1 : Memref sig .tc .vmem S5000x128 .f32) (harg1 : arg1.IsWhole) (arg2 : Memref sig .tc .vmem S128x128 .f32) (harg2 : arg2.IsWhole)
    (arg3 : Memref sig .tc .vmem S384x128 .f32) (harg3 : arg3.IsWhole) (arg4 : Memref sig .tc .vmem S384x128 .f32) (harg4 : arg4.IsWhole)
    (arg5 : Memref sig .tc .vmem S384 .f32) (harg5 : arg5.IsWhole) (arg6 : Memref sig .tc .vmem S384 .f32) (harg6 : arg6.IsWhole)
    (arg7 : Memref sig .tc .vmem S5000x128 .f32) (harg7 : arg7.IsWhole) (arg8 : Memref sig .tc .vmem S128x128 .f32) (harg8 : arg8.IsWhole)
    (x0 : Vec F S5000x128 .f32) (x1 : Vec F S128x128 .f32) (x2 x3 : Vec F S384x128 .f32) (x4 x5 : Vec F S384 .f32) (s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k0_pay2 s x0)
            ∗ owns (c : Thread nD τ) arg8 fullShare s) -∗ K ⟨⟩))
      ⊢ wp frame (wpE (defs₀ (F := F)) Variants.none c none) E (cc0__gru_evolve_and_matmul_kernel i arg1 harg1 arg2 harg2 arg3 harg3 arg4 harg4 arg5 harg5 arg6 harg6 arg7 harg7 arg8 harg8) K := by
  simp only [cc0__gru_evolve_and_matmul_kernel_eq_skeleton]; unfold cc0__gru_evolve_and_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0; subst hf1; subst hf2; subst hf3; subst hf4; subst hf5; subst hf7
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_writes_whole (S := S5000x128) _ _ hz2]
    simp only [readAt_whole (S := S5000x128) _ _ hz2, readAt_whole (S := S128x128) _ _ hz2, readAt_whole (S := S384x128) _ _ hz2, readAt_whole (S := S384) _ _ hz1]
  · iexists f7; isplitr; · ipureintro; rfl
    iexact H7

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not (an unfetched window's block
    index has not moved: the five resident windows are fetched at the first point only). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
abbrev tz : Fin cfg0.N := ⟨0, by rw [show cfg0.N = 10 from N_0]; decide⟩

/-- The evolved weight of the five resident blocks: what the scratch holds after the first point. -/
def scr0 (c : Dev nD) : Vec F S128x128 .f32 :=
  k0_pay1 (iblk0 V c 1 tz) (iblk0 V c 2 tz) (iblk0 V c 3 tz) (iblk0 V c 4 tz) (iblk0 V c 5 tz)

/-- The scratch, a whole scoped buffer of the kernel's own. -/
abbrev scM0 : Memref sig .tc .vmem S128x128 .f32 := Memref.whole cc0_scratch0

/-- The scoped buffers that are neither this region's staging buffers nor its scratch, each whole at some contents. -/
def rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the scratch singled out. -/
theorem PhiA0_eq (c : Dev nD) :
    (Pipeline.ΦA spec0 c : sProp 𝕄)
      = iprop(iprop((∃ d, owns (c : Thread nD τ) scM0 fullShare d) ∗ rest6 (F := F) c) ∗ (∃ r, prngReg c r)) := by
  unfold Pipeline.ΦA rest6; rw [scopedRest0_eq]; simp only [scM0, owns_whole]; rfl

/-- The region invariant before position `n`: before the first point the class's (the scratch at anything); afterwards the
    scratch at the evolved weight, the other scoped buffers at anything, the generator register at some state. -/
def PhiS (c : Dev nD) : (n : ℕ) → n ≤ cfg0.N → sProp 𝕄
  | 0, _ => Pipeline.ΦA spec0 c
  | _ + 1, _ => iprop(iprop(owns (c : Thread nD τ) scM0 fullShare (scr0 V c) ∗ rest6 (F := F) c) ∗ (∃ r, prngReg c r))

theorem PhiS_zero (c : Dev nD) (n : ℕ) (h : n ≤ cfg0.N) (hz : n = 0) : PhiS V c n h = Pipeline.ΦA spec0 c := by
  subst hz; rfl
theorem PhiS_pos (c : Dev nD) (n : ℕ) (h : n ≤ cfg0.N) (hz : n ≠ 0) :
    PhiS V c n h = iprop(iprop(owns (c : Thread nD τ) scM0 fullShare (scr0 V c) ∗ rest6 (F := F) c) ∗ (∃ r, prngReg c r)) := by
  cases n with
  | zero => exact absurd rfl hz
  | succ n => rfl

/-- The proof data of the first region on core `c`: the arrays as the region finds them; after the body at point `t`
    each input's buffer at its block and the output's at the feature block times the evolved weight's transpose; the
    invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay2 (scr0 V c) (iblk0 V c 0 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]
theorem PhiS_succ (c : Dev nD) (t : Fin cfg0.N) :
    (dat0 V c).Φ t.succ = iprop(iprop(owns (c : Thread nD τ) scM0 fullShare (scr0 V c) ∗ rest6 (F := F) c) ∗ (∃ r, prngReg c r)) := by
  dsimp only [dat0]; rw [PhiS_pos V c _ _ (by simp)]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = k0_pay2 (scr0 V c) (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' buffers hold their blocks; at the first point the invariant hands over the
    scratch at anything and takes it back at the evolved weight, at a later point it hands it over and takes it back
    at the evolved weight. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl, PhiS_succ,
    after0_0, after0_1, after0_2, after0_3, after0_4, after0_5, after0_6, PhiS_castSucc]
  by_cases hz : t.val = 0
  · obtain rfl : t = tz := Fin.ext hz
    rw [PhiS_zero V c _ _ rfl, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run0_first c Set.univ (grid0.coords tz) ((hcond0 tz).mpr rfl) _ _ _ _ _ _ _ _ _ _ _ _ _ _ _ _
      (iblk0 V c 0 tz) (iblk0 V c 1 tz) (iblk0 V c 2 tz) (iblk0 V c 3 tz) (iblk0 V c 4 tz) (iblk0 V c 5 tz) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run0_later c Set.univ (grid0.coords t) (fun h => hz ((hcond0 t).mp h)) _ _ _ _ _ _ _ _ _ _ _ _ _ _ _ _
      (iblk0 V c 0 t) (iblk0 V c 1 t) (iblk0 V c 2 t) (iblk0 V c 3 t) (iblk0 V c 4 t) (iblk0 V c 5 t) (scr0 V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation of the first region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 10 := N_0; omega), PhiA0_eq]
  iintro ⟨⟨HS, Hrest⟩, Hg⟩
  isplitl [HS Hrest]
  · isplitl [HS]
    · iexists _; iexact HS
    iexact Hrest
  iexact Hg

end Region0

end Cert.KernelIdeal.Hand

end
-- ==== Proof.Body1.lean ====
/-
  The head region (the second pallas_call) at the buffer contents `V` it is entered from: ten grid points, point `t`
  taking rows 5000 t .. 5000 t + 4999 of the aggregated features, the whole weight row and the bias, and leaving in its
  output block, for each of its rows, the rectified row weighted, summed and shifted by the bias. One control case;
  every load and the one store go through whole-block rectangles.
-/
import proofs.«139222_j88948772700690_1_alg».proof.Proof.Gen.KernelIdeal.Launch
import proofs.«139222_j88948772700690_1_alg».proof.Proof.Gen.KernelIdeal.Skeleton
import proofs.«139222_j88948772700690_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (an unfetched window's
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body reads and writes through. -/
abbrev r1_x : Rect S5000x128 := Rect.unit (s := S5000x128) ![0, 0] S5000x128.size inb_S5000x128_S5000x128_0_0
abbrev r1_w : Rect S1x128 := Rect.unit (s := S1x128) ![0, 0] S1x128.size inb_S1x128_S1x128_0_0
abbrev r1_b : Rect S1 := Rect.unit (s := S1) ![0] S1.size inb_S1_S1_0
abbrev r1_o : Rect S5000x1 := Rect.unit (s := S5000x1) ![0, 0] S5000x1.size inb_S5000x1_S5000x1_0_0

/-- The output block after the body, from the three input blocks: its one store. -/
def out1_3 (x0 : Vec F S5000x128 .f32) (x1 : Vec F S1x128 .f32) (x2 : Vec F S1 .f32) : Vec F S5000x1 .f32 :=
  View.canon [⟨r1_o, k1_pay1 (View.ld x0 r1_x) (View.ld x1 r1_w) (View.ld x2 r1_b)⟩]

/-- The one store covers the block. -/
theorem cover1_3 (p0 : Vec F S5000x1 .f32) (y : S5000x1.Idx) :
    ∃ pc ∈ ([⟨r1_o, p0⟩] : List (View.Piece (Elt F) S5000x1 .f32)), y ∈ pc.1.set :=
  View.cover_of_tiled [⟨r1_o, p0⟩] S5000x1.size (by rfl) y

set_option maxHeartbeats 2000000 in
/-- The body on whole staging buffers, the inputs' at contents `x0 x1 x2` and the output's at anything, runs to the
    continuation holding the inputs' as they were and the output's at `out1_3` of them. -/
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole) (arg3 : Memref sig .tc .vmem S1 .f32) (harg3 : arg3.IsWhole)
    (arg4 : Memref sig .tc .vmem S5000x1 .f32) (harg4 : arg4.IsWhole)
    (x0 : Vec F S5000x128 .f32) (x1 : Vec F S1x128 .f32) (x2 : Vec F S1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__relu_linear_kernel i arg1 harg1 arg2 harg2 arg3 harg3 arg4 harg4) K := by
  simp only [cc1__relu_linear_kernel_eq_skeleton]; unfold cc1__relu_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the head region on core `c`: the arrays as the region finds them; after the body at point `t`
    each input's buffer at its block and the output's at `out1_3` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the head region, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Run.lean ====
/-
  The program's run from the launch to the return: the first region, three stretches of host operations, the head
  region. The buffer contents at each boundary are a fold from the launch memory: a region leaves each of its arrays at
  what its write-backs leave and every other buffer as entered, a host stretch leaves what its operations compute.
  Each argument array is read back through the fold to its launch contents (no host operation writes one and a region
  only reads one), and the result array is named at the last boundary.
-/
import proofs.«139222_j88948772700690_1_alg».proof.Proof.Gen.KernelIdeal.Launch
import proofs.«139222_j88948772700690_1_alg».proof.Proof.Gen.KernelIdeal.Skeleton
import proofs.«139222_j88948772700690_1_alg».proof.Proof.Gen.KernelIdeal.Points
import proofs.«139222_j88948772700690_1_alg».proof.Proof.Gen.KernelIdeal.Regions
import proofs.«139222_j88948772700690_1_alg».proof.Proof.Body0
import proofs.«139222_j88948772700690_1_alg».proof.Proof.Body1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev B0 : Dev nD → Valuation τ sig (Elt F) := fun c b => (s₀ m ρ).mem ((c : Dev nD), b)
abbrev E0 : (c : Dev nD) → (b : Ref sig .tc) → Buf (Elt F) ((c : Thread nD τ).loc b) := fun c b => B0 m ρ c b
/-- At the first region's exit: its arrays at what the pipeline leaves, every other buffer as entered. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem hF0 (c : Dev nD) (w : Fin cfg0.W) : (dat0 (E0 m ρ) c).arrAt w cfg0.N = E1 m ρ c (Pipeline.arrRef spec0 w) :=
  (B1_arr m ρ c w).symm
theorem hrest0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)
/-- After each of the three host stretches (the last is the head region's entry). -/
abbrev B2 : Dev nD → Valuation τ sig (Elt F) := fun c => StableHlo.after hostOps1 (B1 m ρ c)
abbrev B3 : Dev nD → Valuation τ sig (Elt F) := fun c => StableHlo.after hostOps1_1 (B2 m ρ c)
abbrev B4 : Dev nD → Valuation τ sig (Elt F) := fun c => StableHlo.after hostOps1_2 (B3 m ρ c)
abbrev E4 : (c : Dev nD) → (b : Ref sig .tc) → Buf (Elt F) ((c : Thread nD τ).loc b) := fun c b => B4 m ρ c b
/-- At the head region's exit. -/
def B5 (c : Dev nD) : Valuation τ sig (Elt F) :=
  Pipeline.withArrays spec1 c (B4 m ρ c) fun w => (dat1 (E4 m ρ) c).arrAt w cfg1.N
theorem B5_arr (c : Dev nD) (w : Fin cfg1.W) :
    B5 m ρ c (Proc.devRef .tc (Pipeline.arrRef spec1 w)) = (dat1 (E4 m ρ) c).arrAt w cfg1.N := by
  unfold B5; exact Pipeline.withArrays_arr spec1 launch1.win.arr_inj c _ _ w
theorem B5_of_ne (c : Dev nD) (b : Ref sig .tc) (hb : ∀ w, Pipeline.arrRef spec1 w ≠ b) :
    B5 m ρ c (Proc.devRef .tc b) = B4 m ρ c (Proc.devRef .tc b) := by
  unfold B5; exact Pipeline.withArrays_of_ne spec1 c _ _ b hb
abbrev E5 : (c : Dev nD) → (b : Ref sig .tc) → Buf (Elt F) ((c : Thread nD τ).loc b) := fun c b => B5 m ρ c b
theorem hF1 (c : Dev nD) (w : Fin cfg1.W) : (dat1 (E4 m ρ) c).arrAt w cfg1.N = E5 m ρ c (Pipeline.arrRef spec1 w) :=
  (B5_arr m ρ c w).symm
theorem hrest1 (c : Dev nD) : ∀ b, b ∉ Finset.univ.image (Pipeline.arrRef spec1) → E5 m ρ c b = E4 m ρ c b :=
  fun b hb => B5_of_ne m ρ c b fun w e => hb (Finset.mem_image.mpr ⟨w, Finset.mem_univ _, e⟩)

/-- A buffer none of the three host stretches writes is, after them, as the first region left it. -/
theorem keep (c : Dev nD) (r : Ref sig .tc) (h1 : r ∉ hostOps1_W) (h2 : r ∉ hostOps1_1_W) (h3 : r ∉ hostOps1_2_W) :
    B4 m ρ c (Proc.devRef .tc r) = B1 m ρ c (Proc.devRef .tc r) :=
  (StableHlo.after_of_writes_sub hostOps1_2 _ hostOps1_2_writes h3).trans
    ((StableHlo.after_of_writes_sub hostOps1_1 _ hostOps1_1_writes h2).trans
      (StableHlo.after_of_writes_sub hostOps1 _ hostOps1_writes h1))

/-! ### The arguments end as launched -/

theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := B5_of_ne m ρ c main_arg0 (by decide)
    _ = B1 m ρ c (Proc.devRef .tc main_arg0) := keep m ρ c main_arg0 (by decide) (by decide) (by decide)
    _ = B0 m ρ c (Proc.devRef .tc main_arg0) := (B1_arr m ρ c 0).trans (((dat0 (E0 m ρ) c).arrAt_in 0 rfl _).trans (A_eq0 (E0 m ρ) c 0))
    _ = m ((c : Thread nD τ).loc main_arg0) := rfl
theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := B5_of_ne m ρ c main_arg1 (by decide)
    _ = B1 m ρ c (Proc.devRef .tc main_arg1) := keep m ρ c main_arg1 (by decide) (by decide) (by decide)
    _ = B0 m ρ c (Proc.devRef .tc main_arg1) := B1_of_ne m ρ c main_arg1 (by decide)
    _ = m ((c : Thread nD τ).loc main_arg1) := rfl
theorem B5_main_arg2 (c : Dev nD) : B5 m ρ c (Proc.devRef .tc main_arg2) = m ((c : Thread nD τ).loc main_arg2) :=
  calc B5 m ρ c (Proc.devRef .tc main_arg2)
    _ = B4 m ρ c (Proc.devRef .tc main_arg2) := B5_of_ne m ρ c main_arg2 (by decide)
    _ = B1 m ρ c (Proc.devRef .tc main_arg2) := keep m ρ c main_arg2 (by decide) (by decide) (by decide)
    _ = B0 m ρ c (Proc.devRef .tc main_arg2) := B1_of_ne m ρ c main_arg2 (by decide)
    _ = m ((c : Thread nD τ).loc main_arg2) := rfl
theorem B5_main_arg3 (c : Dev nD) : B5 m ρ c (Proc.devRef .tc main_arg3) = m ((c : Thread nD τ).loc main_arg3) :=
  calc B5 m ρ c (Proc.devRef .tc main_arg3)
    _ = B4 m ρ c (Proc.devRef .tc main_arg3) := B5_of_ne m ρ c main_arg3 (by decide)
    _ = B1 m ρ c (Proc.devRef .tc main_arg3) := keep m ρ c main_arg3 (by decide) (by decide) (by decide)
    _ = B0 m ρ c (Proc.devRef .tc main_arg3) := (B1_arr m ρ c 1).trans (((dat0 (E0 m ρ) c).arrAt_in 1 rfl _).trans (A_eq0 (E0 m ρ) c 1))
    _ = m ((c : Thread nD τ).loc main_arg3) := rfl
theorem B5_main_arg4 (c : Dev nD) : B5 m ρ c (Proc.devRef .tc main_arg4) = m ((c : Thread nD τ).loc main_arg4) :=
  calc B5 m ρ c (Proc.devRef .tc main_arg4)
    _ = B4 m ρ c (Proc.devRef .tc main_arg4) := B5_of_ne m ρ c main_arg4 (by decide)
    _ = B1 m ρ c (Proc.devRef .tc main_arg4) := keep m ρ c main_arg4 (by decide) (by decide) (by decide)
    _ = B0 m ρ c (Proc.devRef .tc main_arg4) := (B1_arr m ρ c 2).trans (((dat0 (E0 m ρ) c).arrAt_in 2 rfl _).trans (A_eq0 (E0 m ρ) c 2))
    _ = m ((c : Thread nD τ).loc main_arg4) := rfl
theorem B5_main_arg5 (c : Dev nD) : B5 m ρ c (Proc.devRef .tc main_arg5) = m ((c : Thread nD τ).loc main_arg5) :=
  calc B5 m ρ c (Proc.devRef .tc main_arg5)
    _ = B4 m ρ c (Proc.devRef .tc main_arg5) := B5_of_ne m ρ c main_arg5 (by decide)
    _ = B1 m ρ c (Proc.devRef .tc main_arg5) := keep m ρ c main_arg5 (by decide) (by decide) (by decide)
    _ = B0 m ρ c (Proc.devRef .tc main_arg5) := (B1_arr m ρ c 3).trans (((dat0 (E0 m ρ) c).arrAt_in 3 rfl _).trans (A_eq0 (E0 m ρ) c 3))
    _ = m ((c : Thread nD τ).loc main_arg5) := rfl
theorem B5_main_arg6 (c : Dev nD) : B5 m ρ c (Proc.devRef .tc main_arg6) = m ((c : Thread nD τ).loc main_arg6) :=
  calc B5 m ρ c (Proc.devRef .tc main_arg6)
    _ = B4 m ρ c (Proc.devRef .tc main_arg6) := B5_of_ne m ρ c main_arg6 (by decide)
    _ = B1 m ρ c (Proc.devRef .tc main_arg6) := keep m ρ c main_arg6 (by decide) (by decide) (by decide)
    _ = B0 m ρ c (Proc.devRef .tc main_arg6) := (B1_arr m ρ c 4).trans (((dat0 (E0 m ρ) c).arrAt_in 4 rfl _).trans (A_eq0 (E0 m ρ) c 4))
    _ = m ((c : Thread nD τ).loc main_arg6) := rfl
theorem B5_main_arg7 (c : Dev nD) : B5 m ρ c (Proc.devRef .tc main_arg7) = m ((c : Thread nD τ).loc main_arg7) :=
  calc B5 m ρ c (Proc.devRef .tc main_arg7)
    _ = B4 m ρ c (Proc.devRef .tc main_arg7) := B5_of_ne m ρ c main_arg7 (by decide)
    _ = B1 m ρ c (Proc.devRef .tc main_arg7) := keep m ρ c main_arg7 (by decide) (by decide) (by decide)
    _ = B0 m ρ c (Proc.devRef .tc main_arg7) := (B1_arr m ρ c 5).trans (((dat0 (E0 m ρ) c).arrAt_in 5 rfl _).trans (A_eq0 (E0 m ρ) c 5))
    _ = m ((c : Thread nD τ).loc main_arg7) := rfl
theorem B5_main_arg8 (c : Dev nD) : B5 m ρ c (Proc.devRef .tc main_arg8) = m ((c : Thread nD τ).loc main_arg8) :=
  calc B5 m ρ c (Proc.devRef .tc main_arg8)
    _ = B4 m ρ c (Proc.devRef .tc main_arg8) := (B5_arr m ρ c 1).trans (((dat1 (E4 m ρ) c).arrAt_in 1 rfl _).trans (A_eq1 (E4 m ρ) c 1))
    _ = B1 m ρ c (Proc.devRef .tc main_arg8) := keep m ρ c main_arg8 (by decide) (by decide) (by decide)
    _ = B0 m ρ c (Proc.devRef .tc main_arg8) := B1_of_ne m ρ c main_arg8 (by decide)
    _ = m ((c : Thread nD τ).loc main_arg8) := rfl
theorem B5_main_arg9 (c : Dev nD) : B5 m ρ c (Proc.devRef .tc main_arg9) = m ((c : Thread nD τ).loc main_arg9) :=
  calc B5 m ρ c (Proc.devRef .tc main_arg9)
    _ = B4 m ρ c (Proc.devRef .tc main_arg9) := (B5_arr m ρ c 2).trans (((dat1 (E4 m ρ) c).arrAt_in 2 rfl _).trans (A_eq1 (E4 m ρ) c 2))
    _ = B1 m ρ c (Proc.devRef .tc main_arg9) := keep m ρ c main_arg9 (by decide) (by decide) (by decide)
    _ = B0 m ρ c (Proc.devRef .tc main_arg9) := B1_of_ne m ρ c main_arg9 (by decide)
    _ = m ((c : Thread nD τ).loc main_arg9) := rfl

/-! ## The proof data family and the thread state -/

abbrev padm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) padm p) c
  | ⟨0, _⟩ => fun c => dat0 (E0 m ρ) c
  | ⟨1, _⟩ => fun c => dat1 (E4 m ρ) c
abbrev vr : Variants := Variants.none
abbrev Lz : GSem nD τ sig → Finset Unit := fun _ => ∅
abbrev lvz : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
abbrev hsg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vr Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_ucr (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B5 m ρ c) ∗ ∃ r, prngReg c r)

/-! ## The regions as segments -/

set_option backward.isDefEq.respectTransparency.types false in
def reg0 : Pipeline.RegionSeg (pcfgs (F := F)) padm (pdats m ρ) () defs₀ vr Lz lvz 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ Lz lvz 0 fun _ _ => rfl
  pre c := iprop(StableHlo.held (c : Thread nD τ) (Pipeline.ucRefs τ sig) (B0 m ρ c) ∗ Rr c)
  post c := iprop(StableHlo.held (c : Thread nD τ) (Pipeline.ucRefs τ sig) (B1 m ρ c) ∗ Rr c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    show (dat0 (E0 m ρ) c).Φ (Fin.last cfg0.N) ⊢ _
    have h := hout0 (E0 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) padm (pdats m ρ) () defs₀ vr Lz lvz 1 where
  win := launch1.win.to₀
  block_pos := launch1.block_pos
  stage_whole := launch1.stage_whole
  K := PEmpty
  osem k := k.elim
  ho := Pipeline.OwnSemFacts.none _
  hbody c := (body_obligation1 (E4 m ρ) c).loose
  hwaits := Pipeline.hwaits_of_owed_zero _ _ _ _ Lz lvz 1 fun _ _ => rfl
  pre c := iprop(StableHlo.held (c : Thread nD τ) (Pipeline.ucRefs τ sig) (B4 m ρ c) ∗ Rr c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E4 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (E4 m ρ c) (E5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev sgs : List (Pipeline.Seg (pcfgs (F := F)) padm (pdats m ρ) () defs₀ vr Lz lvz) :=
  [ .region (reg0 m ρ),
    .host (hsg hostOps1 hostOps1_sub hostOps1_fresh (B1 m ρ)),
    .host (hsg hostOps1_1 hostOps1_1_sub hostOps1_1_fresh (B2 m ρ)),
    .host (hsg hostOps1_2 hostOps1_2_sub hostOps1_2_fresh (B3 m ρ)),
    .region (reg1 m ρ) ]
theorem main_run (c : Dev nD) : main (F := F) c = Pipeline.Seg.run (sgs m ρ) := (main_chain c).trans (by chain_rfl)

set_option backward.isDefEq.respectTransparency.types false in
/-- THE RUN: from any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) padm (pdats m ρ) () cellOf_inj emb₁ defs₀ vr Lz lvz m ρ main (sgs m ρ)
    (fun c Q => by rw [main_run m ρ c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rr c)) (Tₙ := Tend m ρ)
    (hch := ⟨fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_ucr main_arg0 (by decide))).trans (B5_main_arg0 m ρ c),
     (h c _ (mem_ucr main_arg1 (by decide))).trans (B5_main_arg1 m ρ c),
     (h c _ (mem_ucr main_arg2 (by decide))).trans (B5_main_arg2 m ρ c),
     (h c _ (mem_ucr main_arg3 (by decide))).trans (B5_main_arg3 m ρ c),
     (h c _ (mem_ucr main_arg4 (by decide))).trans (B5_main_arg4 m ρ c),
     (h c _ (mem_ucr main_arg5 (by decide))).trans (B5_main_arg5 m ρ c),
     (h c _ (mem_ucr main_arg6 (by decide))).trans (B5_main_arg6 m ρ c),
     (h c _ (mem_ucr main_arg7 (by decide))).trans (B5_main_arg7 m ρ c),
     (h c _ (mem_ucr main_arg8 (by decide))).trans (B5_main_arg8 m ρ c),
     (h c _ (mem_ucr main_arg9 (by decide))).trans (B5_main_arg9 m ρ c)⟩) (run_all m ρ)

end Cert.KernelIdeal.Hand

end
-- ==== Proof.KBody0.lean ====
/-
  The first region (the first pallas_call) at the buffer contents `V` it is entered from: ten grid points, point `t`
  taking rows 5000 t .. 5000 t + 4999 of the node features and, whole, the weight matrix, the two gate matrices and
  the two gate biases. At the first point the body evolves the weight by one gated-recurrent step and stores it in a
  scratch buffer of its own, which no later point stores into; at every point it multiplies its block of the features
  by the transpose of what the scratch holds. So the scratch holds anything before the first point and the evolved
  weight of the five resident blocks ever after, and every point's output block is the product of its feature block
  with that one matrix.
-/
import proofs.«139222_j88948772700690_1_alg».proof.Proof.Gen.Kernel.Launch
import proofs.«139222_j88948772700690_1_alg».proof.Proof.Gen.Kernel.Skeleton
import proofs.«139222_j88948772700690_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-block rectangles: what a store through one leaves, what a load through one reads -/

theorem hz2 : (![0, 0] : Fin 2 → Nat) = fun _ => 0 := by funext a; fin_cases a <;> rfl
theorem hz1 : (![0] : Fin 1 → Nat) = fun _ => 0 := by funext a; fin_cases a; rfl

section Whole

variable {Val : EltTy → Type} [∀ e, Nonempty (Val e)] {sg : RefSig} {κ : Kind} {sp : Space} {S : Shape} {e : EltTy}

/-- One store through the whole block leaves its payload, whatever the buffer held. -/
theorem read_writes_whole (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- A load through the whole block reads the buffer's contents. -/
theorem readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

end Whole

/-- The body's branch: taken at the grid's first point only. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-! ## The body's two runs -/

set_option maxHeartbeats 4000000 in
/-- At the first point: from the six input blocks, the output block and the scratch at anything, the body ends with
    the scratch at the evolved weight and the output block at the feature block times its transpose. -/
theorem run0_first (c : Dev nD) (E : Set ℕ) (i : grid0.Coords) (hc : cond0 i)
    (arg1 : Memref sig .tc .vmem S5000x128 .f32) (harg1 : arg1.IsWhole) (arg2 : Memref sig .tc .vmem S128x128 .f32) (harg2 : arg2.IsWhole)
    (arg3 : Memref sig .tc .vmem S384x128 .f32) (harg3 : arg3.IsWhole) (arg4 : Memref sig .tc .vmem S384x128 .f32) (harg4 : arg4.IsWhole)
    (arg5 : Memref sig .tc .vmem S384 .f32) (harg5 : arg5.IsWhole) (arg6 : Memref sig .tc .vmem S384 .f32) (harg6 : arg6.IsWhole)
    (arg7 : Memref sig .tc .vmem S5000x128 .f32) (harg7 : arg7.IsWhole) (arg8 : Memref sig .tc .vmem S128x128 .f32) (harg8 : arg8.IsWhole)
    (x0 : Vec F S5000x128 .f32) (x1 : Vec F S128x128 .f32) (x2 x3 : Vec F S384x128 .f32) (x4 x5 : Vec F S384 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k0_pay2 (k0_pay1 x1 x2 x3 x4 x5) x0)
            ∗ owns (c : Thread nD τ) arg8 fullShare (k0_pay1 x1 x2 x3 x4 x5)) -∗ K ⟨⟩))
      ⊢ wp frame (wpE (defs₀ (F := F)) Variants.none c none) E (cc0__gru_evolve_and_matmul_kernel i arg1 harg1 arg2 harg2 arg3 harg3 arg4 harg4 arg5 harg5 arg6 harg6 arg7 harg7 arg8 harg8) K := by
  simp only [cc0__gru_evolve_and_matmul_kernel_eq_skeleton]; unfold cc0__gru_evolve_and_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_writes_whole (S := S5000x128) _ _ hz2, View.readCov_unit_zero (S := S128x128) _ hz2]
    simp only [readAt_whole (S := S5000x128) _ _ hz2, readAt_whole (S := S128x128) _ _ hz2, readAt_whole (S := S384x128) _ _ hz2, readAt_whole (S := S384) _ _ hz1]
  · iexists _; isplitr
    swap; · iexact H7
    ipureintro
    sl_unfold_run_names
    rw [read_writes_whole (S := S128x128) _ _ hz2]
    simp only [readAt_whole (S := S5000x128) _ _ hz2, readAt_whole (S := S128x128) _ _ hz2, readAt_whole (S := S384x128) _ _ hz2, readAt_whole (S := S384) _ _ hz1]

set_option maxHeartbeats 4000000 in
/-- At a later point: the scratch at `s` is read and kept, and the output block ends at the feature block times its
    transpose. -/
theorem run0_later (c : Dev nD) (E : Set ℕ) (i : grid0.Coords) (hc : ¬cond0 i)
    (arg1 : Memref sig .tc .vmem S5000x128 .f32) (harg1 : arg1.IsWhole) (arg2 : Memref sig .tc .vmem S128x128 .f32) (harg2 : arg2.IsWhole)
    (arg3 : Memref sig .tc .vmem S384x128 .f32) (harg3 : arg3.IsWhole) (arg4 : Memref sig .tc .vmem S384x128 .f32) (harg4 : arg4.IsWhole)
    (arg5 : Memref sig .tc .vmem S384 .f32) (harg5 : arg5.IsWhole) (arg6 : Memref sig .tc .vmem S384 .f32) (harg6 : arg6.IsWhole)
    (arg7 : Memref sig .tc .vmem S5000x128 .f32) (harg7 : arg7.IsWhole) (arg8 : Memref sig .tc .vmem S128x128 .f32) (harg8 : arg8.IsWhole)
    (x0 : Vec F S5000x128 .f32) (x1 : Vec F S128x128 .f32) (x2 x3 : Vec F S384x128 .f32) (x4 x5 : Vec F S384 .f32) (s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k0_pay2 s x0)
            ∗ owns (c : Thread nD τ) arg8 fullShare s) -∗ K ⟨⟩))
      ⊢ wp frame (wpE (defs₀ (F := F)) Variants.none c none) E (cc0__gru_evolve_and_matmul_kernel i arg1 harg1 arg2 harg2 arg3 harg3 arg4 harg4 arg5 harg5 arg6 harg6 arg7 harg7 arg8 harg8) K := by
  simp only [cc0__gru_evolve_and_matmul_kernel_eq_skeleton]; unfold cc0__gru_evolve_and_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0; subst hf1; subst hf2; subst hf3; subst hf4; subst hf5; subst hf7
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_writes_whole (S := S5000x128) _ _ hz2]
    simp only [readAt_whole (S := S5000x128) _ _ hz2, readAt_whole (S := S128x128) _ _ hz2, readAt_whole (S := S384x128) _ _ hz2, readAt_whole (S := S384) _ _ hz1]
  · iexists f7; isplitr; · ipureintro; rfl
    iexact H7

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not (an unfetched window's block
    index has not moved: the five resident windows are fetched at the first point only). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
abbrev tz : Fin cfg0.N := ⟨0, by rw [show cfg0.N = 10 from N_0]; decide⟩

/-- The evolved weight of the five resident blocks: what the scratch holds after the first point. -/
def scr0 (c : Dev nD) : Vec F S128x128 .f32 :=
  k0_pay1 (iblk0 V c 1 tz) (iblk0 V c 2 tz) (iblk0 V c 3 tz) (iblk0 V c 4 tz) (iblk0 V c 5 tz)

/-- The scratch, a whole scoped buffer of the kernel's own. -/
abbrev scM0 : Memref sig .tc .vmem S128x128 .f32 := Memref.whole cc0_scratch0

/-- The scoped buffers that are neither this region's staging buffers nor its scratch, each whole at some contents. -/
def rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the scratch singled out. -/
theorem PhiA0_eq (c : Dev nD) :
    (Pipeline.ΦA spec0 c : sProp 𝕄)
      = iprop(iprop((∃ d, owns (c : Thread nD τ) scM0 fullShare d) ∗ rest6 (F := F) c) ∗ (∃ r, prngReg c r)) := by
  unfold Pipeline.ΦA rest6; rw [scopedRest0_eq]; simp only [scM0, owns_whole]; rfl

/-- The region invariant before position `n`: before the first point the class's (the scratch at anything); afterwards the
    scratch at the evolved weight, the other scoped buffers at anything, the generator register at some state. -/
def PhiS (c : Dev nD) : (n : ℕ) → n ≤ cfg0.N → sProp 𝕄
  | 0, _ => Pipeline.ΦA spec0 c
  | _ + 1, _ => iprop(iprop(owns (c : Thread nD τ) scM0 fullShare (scr0 V c) ∗ rest6 (F := F) c) ∗ (∃ r, prngReg c r))

theorem PhiS_zero (c : Dev nD) (n : ℕ) (h : n ≤ cfg0.N) (hz : n = 0) : PhiS V c n h = Pipeline.ΦA spec0 c := by
  subst hz; rfl
theorem PhiS_pos (c : Dev nD) (n : ℕ) (h : n ≤ cfg0.N) (hz : n ≠ 0) :
    PhiS V c n h = iprop(iprop(owns (c : Thread nD τ) scM0 fullShare (scr0 V c) ∗ rest6 (F := F) c) ∗ (∃ r, prngReg c r)) := by
  cases n with
  | zero => exact absurd rfl hz
  | succ n => rfl

/-- The proof data of the first region on core `c`: the arrays as the region finds them; after the body at point `t`
    each input's buffer at its block and the output's at the feature block times the evolved weight's transpose; the
    invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay2 (scr0 V c) (iblk0 V c 0 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]
theorem PhiS_succ (c : Dev nD) (t : Fin cfg0.N) :
    (dat0 V c).Φ t.succ = iprop(iprop(owns (c : Thread nD τ) scM0 fullShare (scr0 V c) ∗ rest6 (F := F) c) ∗ (∃ r, prngReg c r)) := by
  dsimp only [dat0]; rw [PhiS_pos V c _ _ (by simp)]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = k0_pay2 (scr0 V c) (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' buffers hold their blocks; at the first point the invariant hands over the
    scratch at anything and takes it back at the evolved weight, at a later point it hands it over and takes it back
    at the evolved weight. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl, PhiS_succ,
    after0_0, after0_1, after0_2, after0_3, after0_4, after0_5, after0_6, PhiS_castSucc]
  by_cases hz : t.val = 0
  · obtain rfl : t = tz := Fin.ext hz
    rw [PhiS_zero V c _ _ rfl, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run0_first c Set.univ (grid0.coords tz) ((hcond0 tz).mpr rfl) _ _ _ _ _ _ _ _ _ _ _ _ _ _ _ _
      (iblk0 V c 0 tz) (iblk0 V c 1 tz) (iblk0 V c 2 tz) (iblk0 V c 3 tz) (iblk0 V c 4 tz) (iblk0 V c 5 tz) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run0_later c Set.univ (grid0.coords t) (fun h => hz ((hcond0 t).mp h)) _ _ _ _ _ _ _ _ _ _ _ _ _ _ _ _
      (iblk0 V c 0 t) (iblk0 V c 1 t) (iblk0 V c 2 t) (iblk0 V c 3 t) (iblk0 V c 4 t) (iblk0 V c 5 t) (scr0 V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation of the first region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 10 := N_0; omega), PhiA0_eq]
  iintro ⟨⟨HS, Hrest⟩, Hg⟩
  isplitl [HS Hrest]
  · isplitl [HS]
    · iexists _; iexact HS
    iexact Hrest
  iexact Hg

end Region0

end Cert.Kernel.Hand

end
-- ==== Proof.KBody1.lean ====
/-
  The head region (the second pallas_call) at the buffer contents `V` it is entered from: ten grid points, point `t`
  taking rows 5000 t .. 5000 t + 4999 of the aggregated features, the whole weight row and the bias, and leaving in its
  output block, for each of its rows, the rectified row weighted, summed and shifted by the bias. One control case;
  every load and the one store go through whole-block rectangles.
-/
import proofs.«139222_j88948772700690_1_alg».proof.Proof.Gen.Kernel.Launch
import proofs.«139222_j88948772700690_1_alg».proof.Proof.Gen.Kernel.Skeleton
import proofs.«139222_j88948772700690_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (an unfetched window's
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body reads and writes through. -/
abbrev r1_x : Rect S5000x128 := Rect.unit (s := S5000x128) ![0, 0] S5000x128.size inb_S5000x128_S5000x128_0_0
abbrev r1_w : Rect S1x128 := Rect.unit (s := S1x128) ![0, 0] S1x128.size inb_S1x128_S1x128_0_0
abbrev r1_b : Rect S1 := Rect.unit (s := S1) ![0] S1.size inb_S1_S1_0
abbrev r1_o : Rect S5000x1 := Rect.unit (s := S5000x1) ![0, 0] S5000x1.size inb_S5000x1_S5000x1_0_0

/-- The output block after the body, from the three input blocks: its one store. -/
def out1_3 (x0 : Vec F S5000x128 .f32) (x1 : Vec F S1x128 .f32) (x2 : Vec F S1 .f32) : Vec F S5000x1 .f32 :=
  View.canon [⟨r1_o, k1_pay1 (View.ld x0 r1_x) (View.ld x1 r1_w) (View.ld x2 r1_b)⟩]

/-- The one store covers the block. -/
theorem cover1_3 (p0 : Vec F S5000x1 .f32) (y : S5000x1.Idx) :
    ∃ pc ∈ ([⟨r1_o, p0⟩] : List (View.Piece (Elt F) S5000x1 .f32)), y ∈ pc.1.set :=
  View.cover_of_tiled [⟨r1_o, p0⟩] S5000x1.size (by rfl) y

set_option maxHeartbeats 2000000 in
/-- The body on whole staging buffers, the inputs' at contents `x0 x1 x2` and the output's at anything, runs to the
    continuation holding the inputs' as they were and the output's at `out1_3` of them. -/
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole) (arg3 : Memref sig .tc .vmem S1 .f32) (harg3 : arg3.IsWhole)
    (arg4 : Memref sig .tc .vmem S5000x1 .f32) (harg4 : arg4.IsWhole)
    (x0 : Vec F S5000x128 .f32) (x1 : Vec F S1x128 .f32) (x2 : Vec F S1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__relu_linear_kernel i arg1 harg1 arg2 harg2 arg3 harg3 arg4 harg4) K := by
  simp only [cc1__relu_linear_kernel_eq_skeleton]; unfold cc1__relu_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the head region on core `c`: the arrays as the region finds them; after the body at point `t`
    each input's buffer at its block and the output's at `out1_3` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the head region, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
/-
  The program's run from the launch to the return: the first region, three stretches of host operations, the head
  region. The buffer contents at each boundary are a fold from the launch memory: a region leaves each of its arrays at
  what its write-backs leave and every other buffer as entered, a host stretch leaves what its operations compute.
  Each argument array is read back through the fold to its launch contents (no host operation writes one and a region
  only reads one), and the result array is named at the last boundary.
-/
import proofs.«139222_j88948772700690_1_alg».proof.Proof.Gen.Kernel.Launch
import proofs.«139222_j88948772700690_1_alg».proof.Proof.Gen.Kernel.Skeleton
import proofs.«139222_j88948772700690_1_alg».proof.Proof.Gen.Kernel.Points
import proofs.«139222_j88948772700690_1_alg».proof.Proof.Gen.Kernel.Regions
import proofs.«139222_j88948772700690_1_alg».proof.Proof.KBody0
import proofs.«139222_j88948772700690_1_alg».proof.Proof.KBody1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev B0 : Dev nD → Valuation τ sig (Elt F) := fun c b => (s₀ m ρ).mem ((c : Dev nD), b)
abbrev E0 : (c : Dev nD) → (b : Ref sig .tc) → Buf (Elt F) ((c : Thread nD τ).loc b) := fun c b => B0 m ρ c b
/-- At the first region's exit: its arrays at what the pipeline leaves, every other buffer as entered. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem hF0 (c : Dev nD) (w : Fin cfg0.W) : (dat0 (E0 m ρ) c).arrAt w cfg0.N = E1 m ρ c (Pipeline.arrRef spec0 w) :=
  (B1_arr m ρ c w).symm
theorem hrest0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)
/-- After each of the three host stretches (the last is the head region's entry). -/
abbrev B2 : Dev nD → Valuation τ sig (Elt F) := fun c => StableHlo.after hostOps1 (B1 m ρ c)
abbrev B3 : Dev nD → Valuation τ sig (Elt F) := fun c => StableHlo.after hostOps1_1 (B2 m ρ c)
abbrev B4 : Dev nD → Valuation τ sig (Elt F) := fun c => StableHlo.after hostOps1_2 (B3 m ρ c)
abbrev E4 : (c : Dev nD) → (b : Ref sig .tc) → Buf (Elt F) ((c : Thread nD τ).loc b) := fun c b => B4 m ρ c b
/-- At the head region's exit. -/
def B5 (c : Dev nD) : Valuation τ sig (Elt F) :=
  Pipeline.withArrays spec1 c (B4 m ρ c) fun w => (dat1 (E4 m ρ) c).arrAt w cfg1.N
theorem B5_arr (c : Dev nD) (w : Fin cfg1.W) :
    B5 m ρ c (Proc.devRef .tc (Pipeline.arrRef spec1 w)) = (dat1 (E4 m ρ) c).arrAt w cfg1.N := by
  unfold B5; exact Pipeline.withArrays_arr spec1 launch1.win.arr_inj c _ _ w
theorem B5_of_ne (c : Dev nD) (b : Ref sig .tc) (hb : ∀ w, Pipeline.arrRef spec1 w ≠ b) :
    B5 m ρ c (Proc.devRef .tc b) = B4 m ρ c (Proc.devRef .tc b) := by
  unfold B5; exact Pipeline.withArrays_of_ne spec1 c _ _ b hb
abbrev E5 : (c : Dev nD) → (b : Ref sig .tc) → Buf (Elt F) ((c : Thread nD τ).loc b) := fun c b => B5 m ρ c b
theorem hF1 (c : Dev nD) (w : Fin cfg1.W) : (dat1 (E4 m ρ) c).arrAt w cfg1.N = E5 m ρ c (Pipeline.arrRef spec1 w) :=
  (B5_arr m ρ c w).symm
theorem hrest1 (c : Dev nD) : ∀ b, b ∉ Finset.univ.image (Pipeline.arrRef spec1) → E5 m ρ c b = E4 m ρ c b :=
  fun b hb => B5_of_ne m ρ c b fun w e => hb (Finset.mem_image.mpr ⟨w, Finset.mem_univ _, e⟩)

/-- A buffer none of the three host stretches writes is, after them, as the first region left it. -/
theorem keep (c : Dev nD) (r : Ref sig .tc) (h1 : r ∉ hostOps1_W) (h2 : r ∉ hostOps1_1_W) (h3 : r ∉ hostOps1_2_W) :
    B4 m ρ c (Proc.devRef .tc r) = B1 m ρ c (Proc.devRef .tc r) :=
  (StableHlo.after_of_writes_sub hostOps1_2 _ hostOps1_2_writes h3).trans
    ((StableHlo.after_of_writes_sub hostOps1_1 _ hostOps1_1_writes h2).trans
      (StableHlo.after_of_writes_sub hostOps1 _ hostOps1_writes h1))

/-! ### The arguments end as launched -/

theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := B5_of_ne m ρ c main_arg0 (by decide)
    _ = B1 m ρ c (Proc.devRef .tc main_arg0) := keep m ρ c main_arg0 (by decide) (by decide) (by decide)
    _ = B0 m ρ c (Proc.devRef .tc main_arg0) := (B1_arr m ρ c 0).trans (((dat0 (E0 m ρ) c).arrAt_in 0 rfl _).trans (A_eq0 (E0 m ρ) c 0))
    _ = m ((c : Thread nD τ).loc main_arg0) := rfl
theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := B5_of_ne m ρ c main_arg1 (by decide)
    _ = B1 m ρ c (Proc.devRef .tc main_arg1) := keep m ρ c main_arg1 (by decide) (by decide) (by decide)
    _ = B0 m ρ c (Proc.devRef .tc main_arg1) := B1_of_ne m ρ c main_arg1 (by decide)
    _ = m ((c : Thread nD τ).loc main_arg1) := rfl
theorem B5_main_arg2 (c : Dev nD) : B5 m ρ c (Proc.devRef .tc main_arg2) = m ((c : Thread nD τ).loc main_arg2) :=
  calc B5 m ρ c (Proc.devRef .tc main_arg2)
    _ = B4 m ρ c (Proc.devRef .tc main_arg2) := B5_of_ne m ρ c main_arg2 (by decide)
    _ = B1 m ρ c (Proc.devRef .tc main_arg2) := keep m ρ c main_arg2 (by decide) (by decide) (by decide)
    _ = B0 m ρ c (Proc.devRef .tc main_arg2) := B1_of_ne m ρ c main_arg2 (by decide)
    _ = m ((c : Thread nD τ).loc main_arg2) := rfl
theorem B5_main_arg3 (c : Dev nD) : B5 m ρ c (Proc.devRef .tc main_arg3) = m ((c : Thread nD τ).loc main_arg3) :=
  calc B5 m ρ c (Proc.devRef .tc main_arg3)
    _ = B4 m ρ c (Proc.devRef .tc main_arg3) := B5_of_ne m ρ c main_arg3 (by decide)
    _ = B1 m ρ c (Proc.devRef .tc main_arg3) := keep m ρ c main_arg3 (by decide) (by decide) (by decide)
    _ = B0 m ρ c (Proc.devRef .tc main_arg3) := (B1_arr m ρ c 1).trans (((dat0 (E0 m ρ) c).arrAt_in 1 rfl _).trans (A_eq0 (E0 m ρ) c 1))
    _ = m ((c : Thread nD τ).loc main_arg3) := rfl
theorem B5_main_arg4 (c : Dev nD) : B5 m ρ c (Proc.devRef .tc main_arg4) = m ((c : Thread nD τ).loc main_arg4) :=
  calc B5 m ρ c (Proc.devRef .tc main_arg4)
    _ = B4 m ρ c (Proc.devRef .tc main_arg4) := B5_of_ne m ρ c main_arg4 (by decide)
    _ = B1 m ρ c (Proc.devRef .tc main_arg4) := keep m ρ c main_arg4 (by decide) (by decide) (by decide)
    _ = B0 m ρ c (Proc.devRef .tc main_arg4) := (B1_arr m ρ c 2).trans (((dat0 (E0 m ρ) c).arrAt_in 2 rfl _).trans (A_eq0 (E0 m ρ) c 2))
    _ = m ((c : Thread nD τ).loc main_arg4) := rfl
theorem B5_main_arg5 (c : Dev nD) : B5 m ρ c (Proc.devRef .tc main_arg5) = m ((c : Thread nD τ).loc main_arg5) :=
  calc B5 m ρ c (Proc.devRef .tc main_arg5)
    _ = B4 m ρ c (Proc.devRef .tc main_arg5) := B5_of_ne m ρ c main_arg5 (by decide)
    _ = B1 m ρ c (Proc.devRef .tc main_arg5) := keep m ρ c main_arg5 (by decide) (by decide) (by decide)
    _ = B0 m ρ c (Proc.devRef .tc main_arg5) := (B1_arr m ρ c 3).trans (((dat0 (E0 m ρ) c).arrAt_in 3 rfl _).trans (A_eq0 (E0 m ρ) c 3))
    _ = m ((c : Thread nD τ).loc main_arg5) := rfl
theorem B5_main_arg6 (c : Dev nD) : B5 m ρ c (Proc.devRef .tc main_arg6) = m ((c : Thread nD τ).loc main_arg6) :=
  calc B5 m ρ c (Proc.devRef .tc main_arg6)
    _ = B4 m ρ c (Proc.devRef .tc main_arg6) := B5_of_ne m ρ c main_arg6 (by decide)
    _ = B1 m ρ c (Proc.devRef .tc main_arg6) := keep m ρ c main_arg6 (by decide) (by decide) (by decide)
    _ = B0 m ρ c (Proc.devRef .tc main_arg6) := (B1_arr m ρ c 4).trans (((dat0 (E0 m ρ) c).arrAt_in 4 rfl _).trans (A_eq0 (E0 m ρ) c 4))
    _ = m ((c : Thread nD τ).loc main_arg6) := rfl
theorem B5_main_arg7 (c : Dev nD) : B5 m ρ c (Proc.devRef .tc main_arg7) = m ((c : Thread nD τ).loc main_arg7) :=
  calc B5 m ρ c (Proc.devRef .tc main_arg7)
    _ = B4 m ρ c (Proc.devRef .tc main_arg7) := B5_of_ne m ρ c main_arg7 (by decide)
    _ = B1 m ρ c (Proc.devRef .tc main_arg7) := keep m ρ c main_arg7 (by decide) (by decide) (by decide)
    _ = B0 m ρ c (Proc.devRef .tc main_arg7) := (B1_arr m ρ c 5).trans (((dat0 (E0 m ρ) c).arrAt_in 5 rfl _).trans (A_eq0 (E0 m ρ) c 5))
    _ = m ((c : Thread nD τ).loc main_arg7) := rfl
theorem B5_main_arg8 (c : Dev nD) : B5 m ρ c (Proc.devRef .tc main_arg8) = m ((c : Thread nD τ).loc main_arg8) :=
  calc B5 m ρ c (Proc.devRef .tc main_arg8)
    _ = B4 m ρ c (Proc.devRef .tc main_arg8) := (B5_arr m ρ c 1).trans (((dat1 (E4 m ρ) c).arrAt_in 1 rfl _).trans (A_eq1 (E4 m ρ) c 1))
    _ = B1 m ρ c (Proc.devRef .tc main_arg8) := keep m ρ c main_arg8 (by decide) (by decide) (by decide)
    _ = B0 m ρ c (Proc.devRef .tc main_arg8) := B1_of_ne m ρ c main_arg8 (by decide)
    _ = m ((c : Thread nD τ).loc main_arg8) := rfl
theorem B5_main_arg9 (c : Dev nD) : B5 m ρ c (Proc.devRef .tc main_arg9) = m ((c : Thread nD τ).loc main_arg9) :=
  calc B5 m ρ c (Proc.devRef .tc main_arg9)
    _ = B4 m ρ c (Proc.devRef .tc main_arg9) := (B5_arr m ρ c 2).trans (((dat1 (E4 m ρ) c).arrAt_in 2 rfl _).trans (A_eq1 (E4 m ρ) c 2))
    _ = B1 m ρ c (Proc.devRef .tc main_arg9) := keep m ρ c main_arg9 (by decide) (by decide) (by decide)
    _ = B0 m ρ c (Proc.devRef .tc main_arg9) := B1_of_ne m ρ c main_arg9 (by decide)
    _ = m ((c : Thread nD τ).loc main_arg9) := rfl

/-! ## The proof data family and the thread state -/

abbrev padm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) padm p) c
  | ⟨0, _⟩ => fun c => dat0 (E0 m ρ) c
  | ⟨1, _⟩ => fun c => dat1 (E4 m ρ) c
abbrev vr : Variants := Variants.none
abbrev Lz : GSem nD τ sig → Finset Unit := fun _ => ∅
abbrev lvz : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
abbrev hsg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vr Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_ucr (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B5 m ρ c) ∗ ∃ r, prngReg c r)

/-! ## The regions as segments -/

set_option backward.isDefEq.respectTransparency.types false in
def reg0 : Pipeline.RegionSeg (pcfgs (F := F)) padm (pdats m ρ) () defs₀ vr Lz lvz 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ Lz lvz 0 fun _ _ => rfl
  pre c := iprop(StableHlo.held (c : Thread nD τ) (Pipeline.ucRefs τ sig) (B0 m ρ c) ∗ Rr c)
  post c := iprop(StableHlo.held (c : Thread nD τ) (Pipeline.ucRefs τ sig) (B1 m ρ c) ∗ Rr c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    show (dat0 (E0 m ρ) c).Φ (Fin.last cfg0.N) ⊢ _
    have h := hout0 (E0 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) padm (pdats m ρ) () defs₀ vr Lz lvz 1 where
  win := launch1.win.to₀
  block_pos := launch1.block_pos
  stage_whole := launch1.stage_whole
  K := PEmpty
  osem k := k.elim
  ho := Pipeline.OwnSemFacts.none _
  hbody c := (body_obligation1 (E4 m ρ) c).loose
  hwaits := Pipeline.hwaits_of_owed_zero _ _ _ _ Lz lvz 1 fun _ _ => rfl
  pre c := iprop(StableHlo.held (c : Thread nD τ) (Pipeline.ucRefs τ sig) (B4 m ρ c) ∗ Rr c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E4 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (E4 m ρ c) (E5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev sgs : List (Pipeline.Seg (pcfgs (F := F)) padm (pdats m ρ) () defs₀ vr Lz lvz) :=
  [ .region (reg0 m ρ),
    .host (hsg hostOps1 hostOps1_sub hostOps1_fresh (B1 m ρ)),
    .host (hsg hostOps1_1 hostOps1_1_sub hostOps1_1_fresh (B2 m ρ)),
    .host (hsg hostOps1_2 hostOps1_2_sub hostOps1_2_fresh (B3 m ρ)),
    .region (reg1 m ρ) ]
theorem main_run (c : Dev nD) : main (F := F) c = Pipeline.Seg.run (sgs m ρ) := (main_chain c).trans (by chain_rfl)

set_option backward.isDefEq.respectTransparency.types false in
/-- THE RUN: from any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) padm (pdats m ρ) () cellOf_inj emb₁ defs₀ vr Lz lvz m ρ main (sgs m ρ)
    (fun c Q => by rw [main_run m ρ c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rr c)) (Tₙ := Tend m ρ)
    (hch := ⟨fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_ucr main_arg0 (by decide))).trans (B5_main_arg0 m ρ c),
     (h c _ (mem_ucr main_arg1 (by decide))).trans (B5_main_arg1 m ρ c),
     (h c _ (mem_ucr main_arg2 (by decide))).trans (B5_main_arg2 m ρ c),
     (h c _ (mem_ucr main_arg3 (by decide))).trans (B5_main_arg3 m ρ c),
     (h c _ (mem_ucr main_arg4 (by decide))).trans (B5_main_arg4 m ρ c),
     (h c _ (mem_ucr main_arg5 (by decide))).trans (B5_main_arg5 m ρ c),
     (h c _ (mem_ucr main_arg6 (by decide))).trans (B5_main_arg6 m ρ c),
     (h c _ (mem_ucr main_arg7 (by decide))).trans (B5_main_arg7 m ρ c),
     (h c _ (mem_ucr main_arg8 (by decide))).trans (B5_main_arg8 m ρ c),
     (h c _ (mem_ucr main_arg9 (by decide))).trans (B5_main_arg9 m ρ c)⟩) (run_all m ρ)

end Cert.Kernel.Hand

end
-- ==== Proof.Spec.lean ====
/-
  The mathematics both programs compute, over the extended reals, index by index.

  One step of a gated recurrent cell applied to a 128 x 128 weight matrix W, which is both the cell's input and its
  hidden state: with gi = W wihᵀ + bih and gh = W whhᵀ + bhh (128 x 384 each, three column groups of 128),
      r  = σ(gi₀ + gh₀),   z = σ(gi₁ + gh₁),   n = tanh(gi₂ + r · gh₂),   W' = (1 − z) · n + z · W,
  σ the logistic function. Then the node features are multiplied by W'ᵀ, row by row (`rowsDot`), and, after the
  graph aggregation both programs share, each node's row is rectified, weighted and summed, and a bias added (`head`).
-/
import Idealize.ShloMosaic.PureOps.Ideal
import Idealize.ShloMosaic.Lib.ValueIdx

noncomputable section

namespace Cert.Spec

open Idealize.ShloMosaic Idealize.ShloMosaic.ValueIdx

/-- The float word of 1.0 and of 0.0, as the extended reals they denote (never evaluated: both programs print the same words). -/
abbrev one : EReal := Ideal.ofBits .f32 0x3F800000#32
abbrev zero : EReal := Ideal.ofBits .f32 0x00000000#32

/-- Column `o + j` of a 384-column gate matrix: group `o / 128`, column `j` within the group. -/
abbrev col (o : Nat) (ho : o + 128 ≤ 384) (j : Fin 128) : Fin 384 := ⟨o + j.val, by have := j.isLt; omega⟩

/-- A gate pre-activation `(W wᵀ + b)` at row `r`, column `j` of 384. -/
def gate (W : (⟨2, ![128, 128]⟩ : Shape).Idx → EReal) (w : (⟨2, ![384, 128]⟩ : Shape).Idx → EReal)
    (b : (⟨1, ![384]⟩ : Shape).Idx → EReal) (r : Fin 128) (j : Fin 384) : EReal :=
  (∑ k : Fin 128, W (ix2 r k) * w (ix2 j k)) + b (ix1 j)

/-- The evolved weight at `(r, j)`. -/
def evolvedAt (W : (⟨2, ![128, 128]⟩ : Shape).Idx → EReal) (wih whh : (⟨2, ![384, 128]⟩ : Shape).Idx → EReal)
    (bih bhh : (⟨1, ![384]⟩ : Shape).Idx → EReal) (r j : Fin 128) : EReal :=
  (one - Ideal.logistic (gate W wih bih r (col 128 (by omega) j) + gate W whh bhh r (col 128 (by omega) j)))
      * Ideal.tanh (gate W wih bih r (col 256 (by omega) j)
          + Ideal.logistic (gate W wih bih r (col 0 (by omega) j) + gate W whh bhh r (col 0 (by omega) j))
            * gate W whh bhh r (col 256 (by omega) j))
    + Ideal.logistic (gate W wih bih r (col 128 (by omega) j) + gate W whh bhh r (col 128 (by omega) j)) * W (ix2 r j)

/-- The evolved weight as an array. -/
def evolved (W : (⟨2, ![128, 128]⟩ : Shape).Idx → EReal) (wih whh : (⟨2, ![384, 128]⟩ : Shape).Idx → EReal)
    (bih bhh : (⟨1, ![384]⟩ : Shape).Idx → EReal) : (⟨2, ![128, 128]⟩ : Shape).Idx → EReal :=
  fun i => evolvedAt W wih whh bih bhh (i 0) (i 1)

theorem evolved_apply (W : (⟨2, ![128, 128]⟩ : Shape).Idx → EReal) (wih whh : (⟨2, ![384, 128]⟩ : Shape).Idx → EReal)
    (bih bhh : (⟨1, ![384]⟩ : Shape).Idx → EReal) (r j : Fin 128) :
    evolved W wih whh bih bhh (ix2 r j) = evolvedAt W wih whh bih bhh r j := rfl

/-- Row `p` of `x` against row `q` of `Wn`: the entry `(p, q)` of `x Wnᵀ`. -/
def rowsDot {R : Nat} (x : (⟨2, ![R, 128]⟩ : Shape).Idx → EReal) (Wn : (⟨2, ![128, 128]⟩ : Shape).Idx → EReal)
    (p : Fin R) (q : Fin 128) : EReal :=
  ∑ k : Fin 128, x (ix2 p k) * Wn (ix2 q k)

/-- A node's row rectified, weighted by `w` and summed, plus the bias. -/
def head {R : Nat} (o : (⟨2, ![R, 128]⟩ : Shape).Idx → EReal) (w : (⟨2, ![1, 128]⟩ : Shape).Idx → EReal)
    (b : (⟨1, ![1]⟩ : Shape).Idx → EReal) (p : Fin R) : EReal :=
  (∑ k : Fin 128, max (o (ix2 p k)) zero * w (ix2 (0 : Fin 1) k)) + b (ix1 (0 : Fin 1))

end Cert.Spec

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.PayVal.lean ====
import proofs.«139222_j88948772700690_1_alg».proof.Proof.Spec
import proofs.«139222_j88948772700690_1_alg».proof.Proof.LibPlainDot
import proofs.«139222_j88948772700690_1_alg».proof.Proof.LibKeepdims
import proofs.«139222_j88948772700690_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.PayVal

open Cert.KernelIdeal Cert.KernelIdeal.Gen Idealize.ShloMosaic Idealize.ShloMosaic.ValueIdx

/-- The kernel's product block: row p of the x block against row q of the weight. -/
theorem pay2_apply (Wn : Vec Ideal S128x128 .f32) (xb : Vec Ideal S5000x128 .f32) (p : Fin 5000) (q : Fin 128) :
    k0_pay2 (F := Ideal) Wn xb (ix2 p q) = Cert.Spec.rowsDot xb Wn p q := by
  unfold k0_pay2
  refine (Cert.PlainDot.matmul_zero_apply 5000 128 128 none _ _ (ix2 p q)).trans ?_
  unfold Cert.Spec.rowsDot
  refine Finset.sum_congr rfl fun k _ => ?_
  refine congrArg (fun t => xb (ix2 p k) * t) ?_
  exact transpose_apply [1, 0] _ transposes_S128x128_p1_0_S128x128 (ix2 k q) (ix2 q k) (fun b => match b with
    | ⟨0, _⟩ => rfl
    | ⟨1, _⟩ => rfl)

/-- The head kernel's block: row p rectified, weighted and summed, plus the bias. -/
theorem pay3_apply (ob : Vec Ideal S5000x128 .f32) (w : Vec Ideal S1x128 .f32) (b : Vec Ideal S1 .f32) (p : Fin 5000) (u : Fin 1) :
    k1_pay1 (F := Ideal) ob w b (ix2 p u) = Cert.Spec.head ob w b p := by
  unfold k1_pay1
  unfold Cert.Spec.head
  refine (addf_apply _ _ _).trans ?_
  refine congrArg₂ (· + ·) ?_ ?_
  · refine (Cert.Keepdims.shapeCast_a_a1_apply _ shapeCasts_S5000_S5000x1 p u).trans ?_
    refine (Cert.Keepdims.sum_axis1_apply _ _ reduces_S5000x128_S5000 (.inl rfl) rfl p).trans ?_
    refine Finset.sum_congr rfl fun k _ => ?_
    refine (mulf_apply _ _ _).trans ?_
    refine congrArg₂ (· * ·) ?_ ?_
    · refine (maximumf_apply _ _ _).trans ?_
      exact congrArg (fun v : Vec Ideal S5000x128 .f32 => max (v (ix2 p k)) Cert.Spec.zero)
        (shapeCast_self ob shapeCasts_S5000x128_S5000x128)
    · exact broadcastTo_1b_ab_apply w broadcasts_S1x128_S5000x128 p k
  · refine (broadcastTo_1b_ab_apply _ broadcasts_S1x1_S5000x1 p u).trans ?_
    exact Cert.Keepdims.shapeCast_a_a1_apply b shapeCasts_S1_S1x1 0 u

/-- The gate matrix `W wᵀ + b`: the product into a zero accumulator, plus the bias row broadcast over the 128 rows. -/
abbrev a_gateMat (W : FVec Ideal S128x128 .f32) (w : FVec Ideal S384x128 .f32) (b : FVec Ideal S384 .f32) :
    FVec Ideal S128x384 .f32 :=
  addf
    (matmul dot_S128x128_S128x384_S128x384_1_0_0_1_n_n none W
      (transpose S128x384 [1, 0] w transposes_S384x128_p1_0_S128x384) (constant S128x384 .f32 0x00000000#32))
    (broadcastTo S128x384 (shapeCast S1x384 b shapeCasts_S384_S1x384) broadcasts_S1x384_S128x384)

/-- The gate matrix at `(r, c)` is the row of `W` against row `c` of `w`, plus `b c`. -/
theorem a_gateMat_apply (W : FVec Ideal S128x128 .f32) (w : FVec Ideal S384x128 .f32) (b : FVec Ideal S384 .f32)
    (r : Fin 128) (c : Fin 384) : a_gateMat W w b (ix2 r c) = Cert.Spec.gate W w b r c := by
  unfold Cert.Spec.gate
  refine (addf_apply _ _ _).trans ?_
  refine congrArg₂ (· + ·) ?_ ?_
  · refine (Cert.PlainDot.matmul_zero_apply 128 128 384 none _ _ (ix2 r c)).trans ?_
    refine Finset.sum_congr rfl fun k _ => ?_
    refine congrArg (fun t => W (ix2 r k) * t) ?_
    exact transpose_ix2_apply w transposes_S384x128_p1_0_S128x384 k c
  · refine (broadcastTo_1b_ab_apply _ broadcasts_S1x384_S128x384 r c).trans ?_
    exact shapeCast_a_1a_apply b shapeCasts_S384_S1x384 0 c

/-- The 128 columns of the gate matrix from column `o` on, at `(r, j)`: the gate at column `o + j`. -/
theorem a_slice_gate (W : FVec Ideal S128x128 .f32) (w : FVec Ideal S384x128 .f32) (b : FVec Ideal S384 .f32)
    (o : Nat) (ho : o + 128 ≤ 384) (h : S128x384.Slices ![0, o] S128x128) (r j : Fin 128) :
    extractStridedSlice S128x128 ![0, o] (a_gateMat W w b) h (ix2 r j) = Cert.Spec.gate W w b r (Cert.Spec.col o ho j) :=
  (slice2_axis1_apply o (a_gateMat W w b) h r j (Cert.Spec.col o ho j) rfl).trans (a_gateMat_apply W w b r _)

/-- The sum of the two gate matrices' column groups from `o` on, at `(r, j)`. -/
theorem a_sum_slices (W : FVec Ideal S128x128 .f32) (wih whh : FVec Ideal S384x128 .f32) (bih bhh : FVec Ideal S384 .f32)
    (o : Nat) (ho : o + 128 ≤ 384) (h : S128x384.Slices ![0, o] S128x128) (r j : Fin 128) :
    addf (extractStridedSlice S128x128 ![0, o] (a_gateMat W wih bih) h)
        (extractStridedSlice S128x128 ![0, o] (a_gateMat W whh bhh) h) (ix2 r j)
      = Cert.Spec.gate W wih bih r (Cert.Spec.col o ho j) + Cert.Spec.gate W whh bhh r (Cert.Spec.col o ho j) :=
  (addf_apply _ _ _).trans (congrArg₂ (· + ·) (a_slice_gate W wih bih o ho h r j) (a_slice_gate W whh bhh o ho h r j))

/-- The logistic function and the hyperbolic tangent act entry by entry. -/
theorem a_logistic_apply {s : Shape} {φ : FTy} (a : FVec Ideal s φ) (i : s.Idx) : logistic a i = Ideal.logistic (a i) := rfl
theorem a_tanh_apply {s : Shape} {φ : FTy} (a : FVec Ideal s φ) (i : s.Idx) : tanh a i = Ideal.tanh (a i) := rfl

/-- The kernel's stored weight at `(r, j)` is the evolved weight there. -/
theorem a_pay1_apply (W : Vec Ideal S128x128 .f32) (wih whh : Vec Ideal S384x128 .f32) (bih bhh : Vec Ideal S384 .f32)
    (r j : Fin 128) :
    k0_pay1 (F := Ideal) W wih whh bih bhh (ix2 r j) = Cert.Spec.evolvedAt W wih whh bih bhh r j := by
  unfold k0_pay1
  unfold Cert.Spec.evolvedAt
  refine (congrFun (shapeCast_self _ shapeCasts_S128x128_S128x128) (ix2 r j)).trans ?_
  have hr := a_sum_slices W wih whh bih bhh 0 (by omega) slices_S128x384_o0_0_S128x128 r j
  have hz := a_sum_slices W wih whh bih bhh 128 (by omega) slices_S128x384_o0_128_S128x128 r j
  have hn1 := a_slice_gate W wih bih 256 (by omega) slices_S128x384_o0_256_S128x128 r j
  have hn2 := a_slice_gate W whh bhh 256 (by omega) slices_S128x384_o0_256_S128x128 r j
  refine (addf_apply _ _ _).trans ?_
  refine congrArg₂ (· + ·) ?_ ?_
  · refine (mulf_apply _ _ _).trans ?_
    refine congrArg₂ (· * ·) ?_ ?_
    · refine (subf_apply _ _ _).trans ?_
      exact congrArg (fun t => Cert.Spec.one - Ideal.logistic t) hz
    · refine (a_tanh_apply _ _).trans ?_
      refine congrArg Ideal.tanh ?_
      refine (addf_apply _ _ _).trans ?_
      refine congrArg₂ (· + ·) hn1 ?_
      refine (mulf_apply _ _ _).trans ?_
      exact congrArg₂ (· * ·) (congrArg Ideal.logistic hr) hn2
  · refine (mulf_apply _ _ _).trans ?_
    exact congrArg (fun t => Ideal.logistic t * W (ix2 r j)) hz

/-- The kernel's stored weight is the evolved weight, entry by entry. -/
theorem pay1_eq (W : Vec Ideal S128x128 .f32) (wih whh : Vec Ideal S384x128 .f32) (bih bhh : Vec Ideal S384 .f32) :
    k0_pay1 (F := Ideal) W wih whh bih bhh = Cert.Spec.evolved W wih whh bih bhh := by
  funext i
  obtain ⟨r, j, rfl⟩ : ∃ r j : Fin 128, i = ix2 r j := ⟨i 0, i 1, eq_ix2 i⟩
  exact (a_pay1_apply W wih whh bih bhh r j).trans (Cert.Spec.evolved_apply W wih whh bih bhh r j).symm

end Cert.KernelIdeal.PayVal

end
-- ==== Proof.Arrays0.lean ====
/-
  The first region's output array as one function of the arrays the region is entered with. The grid has ten points;
  point t reads rows 5000 t .. 5000 t + 4999 of the node features and, whole, the weight matrix, the two gate matrices
  and the two gate biases, and writes rows 5000 t .. 5000 t + 4999 of the output. Each resident block is its whole
  array, so the scratch holds the evolved weight of the five arrays; the product block at (p, q) is row 5000 t + p of
  the features against row q of that weight; the ten blocks tile the output. So the output array ends, at (r, q), at
  row r of the features against row q of the evolved weight.
-/
import proofs.«139222_j88948772700690_1_alg».proof.Proof.Body0
import proofs.«139222_j88948772700690_1_alg».proof.Proof.PayVal
import proofs.«139222_j88948772700690_1_alg».proof.Proof.Spec
import Idealize.ShloMosaic.Lib.Pipeline.Value
import Idealize.ShloMosaic.Lib.ValueIdx

set_option maxRecDepth 16384

noncomputable section

namespace Cert.KernelIdeal.Arr0

open Cert.KernelIdeal Cert.KernelIdeal.Gen Cert.KernelIdeal.Hand Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The transformed features as one function of the arrays the region is entered with: row i 0 of x against row i 1 of the evolved weight. -/
def G0 (c : Dev nD) : S50000x128.Idx → EReal := fun i =>
  Cert.Spec.rowsDot (V c main_arg0) (Cert.Spec.evolved (V c main_arg3) (V c main_arg4) (V c main_arg5) (V c main_arg6) (V c main_arg7)) (i 0) (i 1)

/-- The printed index maps, decided over the ten grid points: the feature window and the output window sit at block
    row t, block column 0; the five resident windows at block index 0 on every axis. -/
theorem e_idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 1) = 0
    ∧ win0_6.index t (0 : Fin 2) = t.val ∧ win0_6.index t (1 : Fin 2) = 0 :=
  (by decide +kernel : ∀ t : Fin grid0.N, _)

/-- A resident window's block at any point is the whole array: the weight matrix, -/
theorem e_iblk0_1 (c : Dev nD) (t : Fin cfg0.N) : iblk0 V c 1 t = V c main_arg3 := by
  obtain ⟨-, -, e0, e1, -⟩ := e_idx_facts0 t
  funext j
  unfold iblk0
  rw [View.read_apply]
  show V c main_arg3 _ = V c main_arg3 j
  refine congrArg (V c main_arg3) ?_
  funext a; apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- the input gate matrix, -/
theorem e_iblk0_2 (c : Dev nD) (t : Fin cfg0.N) : iblk0 V c 2 t = V c main_arg4 := by
  obtain ⟨-, -, -, -, e0, e1, -⟩ := e_idx_facts0 t
  funext j
  unfold iblk0
  rw [View.read_apply]
  show V c main_arg4 _ = V c main_arg4 j
  refine congrArg (V c main_arg4) ?_
  funext a; apply Fin.ext
  match a with
  | ⟨0, _⟩ => show win0_2.index t (0 : Fin 2) * 384 + 1 * (j 0).val = (j 0).val; omega
  | ⟨1, _⟩ => show win0_2.index t (1 : Fin 2) * 128 + 1 * (j 1).val = (j 1).val; omega

/-- the hidden gate matrix, -/
theorem e_iblk0_3 (c : Dev nD) (t : Fin cfg0.N) : iblk0 V c 3 t = V c main_arg5 := by
  obtain ⟨-, -, -, -, -, -, e0, e1, -⟩ := e_idx_facts0 t
  funext j
  unfold iblk0
  rw [View.read_apply]
  show V c main_arg5 _ = V c main_arg5 j
  refine congrArg (V c main_arg5) ?_
  funext a; apply Fin.ext
  match a with
  | ⟨0, _⟩ => show win0_3.index t (0 : Fin 2) * 384 + 1 * (j 0).val = (j 0).val; omega
  | ⟨1, _⟩ => show win0_3.index t (1 : Fin 2) * 128 + 1 * (j 1).val = (j 1).val; omega

/-- the input gate bias, -/
theorem e_iblk0_4 (c : Dev nD) (t : Fin cfg0.N) : iblk0 V c 4 t = V c main_arg6 := by
  obtain ⟨-, -, -, -, -, -, -, -, e0, -⟩ := e_idx_facts0 t
  funext j
  unfold iblk0
  rw [View.read_apply]
  show V c main_arg6 _ = V c main_arg6 j
  refine congrArg (V c main_arg6) ?_
  funext a; apply Fin.ext
  match a with
  | ⟨0, _⟩ => show win0_4.index t (0 : Fin 1) * 384 + 1 * (j 0).val = (j 0).val; omega

/-- the hidden gate bias. -/
theorem e_iblk0_5 (c : Dev nD) (t : Fin cfg0.N) : iblk0 V c 5 t = V c main_arg7 := by
  obtain ⟨-, -, -, -, -, -, -, -, -, e0, -⟩ := e_idx_facts0 t
  funext j
  unfold iblk0
  rw [View.read_apply]
  show V c main_arg7 _ = V c main_arg7 j
  refine congrArg (V c main_arg7) ?_
  funext a; apply Fin.ext
  match a with
  | ⟨0, _⟩ => show win0_5.index t (0 : Fin 1) * 384 + 1 * (j 0).val = (j 0).val; omega

/-- The feature block at point t, at (p, k), is the feature array at row 5000 t + p, column k. -/
theorem e_iblk0_0_apply (c : Dev nD) (t : Fin cfg0.N) (p : Fin 5000) (k : Fin 128) (r : Fin 50000)
    (hr : r.val = t.val * 5000 + p.val) :
    iblk0 V c 0 t (ix2 p k) = V c main_arg0 (ix2 r k) := by
  obtain ⟨e0, e1, -⟩ := e_idx_facts0 t
  unfold iblk0
  rw [View.read_apply]
  show V c main_arg0 _ = V c main_arg0 (ix2 r k)
  refine congrArg (V c main_arg0) ?_
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- The output block's entry (p, q) at point t sits in the output array at row 5000 t + p, column q. -/
theorem e_emb6 (t : Fin cfg0.N) (p : Fin 5000) (q : Fin 128) (r : Fin 50000) (hr : r.val = t.val * 5000 + p.val) :
    ((cfg0.win 6).blk t).view.emb (ix2 p q) = (ix2 r q : S50000x128.Idx) := by
  obtain ⟨-, -, -, -, -, -, -, -, -, -, e0, e1⟩ := e_idx_facts0 t
  funext a; apply Fin.ext
  match a with
  | ⟨0, _⟩ => show win0_6.index t (0 : Fin 2) * 5000 + 1 * p.val = r.val; omega
  | ⟨1, _⟩ => show win0_6.index t (1 : Fin 2) * 128 + 1 * q.val = q.val; omega

/-- What point t writes back is block t of G0: the product block at (p, q) is row 5000 t + p of the features
    against row q of the evolved weight. -/
theorem e_flushed0 (c : Dev nD) (t : Fin cfg0.N) :
    (dat0 (F := Ideal) V c).flushed 6 t = ((cfg0.win 6).blk t).view.read (Elt Ideal) (G0 V c) := by
  show (cfg0.win 6).cut (grid0.coords t) ((dat0 V c).after 6 t) = _
  rw [after0_6]
  funext j
  obtain ⟨p, q, rfl⟩ : ∃ (p : Fin 5000) (q : Fin 128), j = ix2 p q := ⟨j 0, j 1, eq_ix2 j⟩
  have hN : cfg0.N = 10 := N_0
  have hr : t.val * 5000 + p.val < 50000 := by have := t.isLt; have := p.isLt; omega
  rw [View.read_apply]
  show k0_pay2 (scr0 V c) (iblk0 V c 0 t) (ix2 p q) = G0 V c (((cfg0.win 6).blk t).view.emb (ix2 p q))
  rw [e_emb6 t p q ⟨_, hr⟩ rfl]
  refine (PayVal.pay2_apply _ _ p q).trans ?_
  unfold scr0
  rw [e_iblk0_1, e_iblk0_2, e_iblk0_3, e_iblk0_4, e_iblk0_5, PayVal.pay1_eq]
  show Cert.Spec.rowsDot (iblk0 V c 0 t) _ p q = Cert.Spec.rowsDot (V c main_arg0) _ (⟨_, hr⟩ : Fin 50000) q
  unfold Cert.Spec.rowsDot
  refine Finset.sum_congr rfl fun k _ => ?_
  refine congrArg (fun u => u * _) ?_
  exact e_iblk0_0_apply V c t p k ⟨_, hr⟩ rfl

/-- An index of the output array is in point t's block iff each coordinate is in the block's range on its axis. -/
theorem e_mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v0).slice (win0_6.rect t)).set ↔ _
  rw [View.set_slice_whole, Rect.mem_set_unit]
  exact Iff.rfl

/-- The ten blocks tile the output array: row r lies in the block of point r / 5000. -/
theorem e_cover6 (i : S50000x128.Idx) :
    ∃ t : Fin cfg0.N, (cfg0.win 6).flush t = true ∧ i ∈ ((cfg0.win 6).blk t).view.set := by
  have hN : cfg0.N = 10 := N_0
  have hi0 : (i 0).val < 50000 := (i 0).isLt
  have hi1 : (i 1).val < 128 := (i 1).isLt
  have ht : (i 0).val / 5000 < cfg0.N := by rw [hN]; omega
  obtain ⟨-, -, -, -, -, -, -, -, -, -, e0, e1⟩ := e_idx_facts0 ⟨(i 0).val / 5000, ht⟩
  refine ⟨⟨(i 0).val / 5000, ht⟩, flush0_6 _, ?_⟩
  rw [e_mem_blk6]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    rw [e1]
    omega

/-- The array the first region leaves in main_v0. -/
theorem final0 (c : Dev nD) : (dat0 (F := Ideal) V c).arrAt 6 cfg0.N = G0 V c :=
  (dat0 (F := Ideal) V c).arrAt_eq_of_cover 6 (G0 V c) (fun t _ => e_flushed0 V c t) e_cover6

end Cert.KernelIdeal.Arr0

end
-- ==== Proof.Arrays1.lean ====
import proofs.«139222_j88948772700690_1_alg».proof.Proof.Body1
import proofs.«139222_j88948772700690_1_alg».proof.Proof.PayVal
import proofs.«139222_j88948772700690_1_alg».proof.Proof.Spec
import Idealize.ShloMosaic.Lib.Pipeline.Value
import Idealize.ShloMosaic.Lib.ValueIdx

set_option maxRecDepth 16384

noncomputable section

namespace Cert.KernelIdeal.Arr1

open Cert.KernelIdeal Cert.KernelIdeal.Gen Cert.KernelIdeal.Hand Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The result as one function of the arrays the head region is entered with: row i 0 of the aggregated features rectified, weighted, summed, plus the bias. -/
def G1 (c : Dev nD) : S50000x1.Idx → EReal := fun i =>
  Cert.Spec.head (V c main_v45) (V c main_arg8) (V c main_arg9) (i 0)

/-- The zero offsets of a whole block, as the constant function. -/
theorem d_hz2 : (![0, 0] : Fin 2 → Nat) = fun _ => 0 := funext fun a => by fin_cases a <;> rfl
theorem d_hz1 : (![0] : Fin 1 → Nat) = fun _ => 0 := funext fun a => by fin_cases a <;> rfl

/-- The block indices at point t: the feature and the output windows sit at block row t, column 0; the weight row and the bias at block 0. -/
theorem d_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The weight row's block at any point is the whole weight row. -/
theorem d_iblk1_1 (c : Dev nD) (t : Fin cfg1.N) : iblk1 (F := Ideal) V c 1 t = V c main_arg8 := by
  obtain ⟨e0, e1, e2, e3, e4, e5, e6⟩ := d_idx_facts t
  funext j
  show V c main_arg8 (((cfg1.win 1).blk t).view.emb j) = V c main_arg8 j
  refine congrArg (fun y : S1x128.Idx => V c main_arg8 y) ?_
  funext a; apply Fin.ext
  match a with
  | ⟨0, _⟩ => show win1_1.index t (0 : Fin 2) * 1 + 1 * (j 0).val = (j 0).val; omega
  | ⟨1, _⟩ => show win1_1.index t (1 : Fin 2) * 128 + 1 * (j 1).val = (j 1).val; omega

/-- The bias's block at any point is the whole bias. -/
theorem d_iblk1_2 (c : Dev nD) (t : Fin cfg1.N) : iblk1 (F := Ideal) V c 2 t = V c main_arg9 := by
  obtain ⟨e0, e1, e2, e3, e4, e5, e6⟩ := d_idx_facts t
  funext j
  show V c main_arg9 (((cfg1.win 2).blk t).view.emb j) = V c main_arg9 j
  refine congrArg (fun y : S1.Idx => V c main_arg9 y) ?_
  funext a; apply Fin.ext
  match a with
  | ⟨0, _⟩ => show win1_2.index t (0 : Fin 1) * 1 + 1 * (j 0).val = (j 0).val; omega

/-- Row p of point t's block is row 5000 t + p of the array. -/
theorem d_row_lt (t : Fin cfg1.N) (p : Fin 5000) : t.val * 5000 + p.val < 50000 := by
  have ht : t.val < 10 := lt_of_lt_of_eq t.isLt N_1
  have hp : p.val < 5000 := p.isLt
  omega

def d_row (t : Fin cfg1.N) (p : Fin 5000) : Fin 50000 := ⟨t.val * 5000 + p.val, d_row_lt t p⟩

/-- The feature block of point t at (p, k) is the feature array at row 5000 t + p, column k. -/
theorem d_iblk1_0 (c : Dev nD) (t : Fin cfg1.N) (p : Fin 5000) (k : Fin 128) :
    iblk1 (F := Ideal) V c 0 t (ix2 p k) = V c main_v45 (ix2 (d_row t p) k) := by
  obtain ⟨e0, e1, e2, e3, e4, e5, e6⟩ := d_idx_facts t
  show V c main_v45 (((cfg1.win 0).blk t).view.emb (ix2 p k)) = V c main_v45 (ix2 (d_row t p) k)
  refine congrArg (fun y : S50000x128.Idx => V c main_v45 y) ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The output block of point t at (p, u) sits in the output array at row 5000 t + p. -/
theorem d_emb3 (t : Fin cfg1.N) (p : Fin 5000) (u : Fin 1) :
    ((cfg1.win 3).blk t).view.emb (ix2 p u) (0 : Fin 2) = d_row t p := by
  obtain ⟨e0, e1, e2, e3, e4, e5, e6⟩ := d_idx_facts t
  apply Fin.ext
  show win1_3.index t (0 : Fin 2) * 5000 + 1 * p.val = t.val * 5000 + p.val
  omega

/-- The head at a row of the feature block of point t is the head at row 5000 t + p of the feature array. -/
theorem d_head_blk (c : Dev nD) (t : Fin cfg1.N) (p : Fin 5000) :
    Cert.Spec.head (iblk1 (F := Ideal) V c 0 t) (V c main_arg8) (V c main_arg9) p
      = Cert.Spec.head (V c main_v45) (V c main_arg8) (V c main_arg9) (d_row t p) := by
  unfold Cert.Spec.head
  refine congrArg (fun s : EReal => s + V c main_arg9 (ix1 (0 : Fin 1))) ?_
  refine Finset.sum_congr rfl fun k _ => ?_
  exact congrArg (fun v : EReal => max v Cert.Spec.zero * V c main_arg8 (ix2 (0 : Fin 1) k)) (d_iblk1_0 V c t p k)

/-- What point t writes back is block t of G1 of the arrays as the region finds them. -/
theorem d_flushed3_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  unfold out1_3
  rw [View.canon_unit_zero d_hz2]
  rw [View.ld_unit_zero (S := S5000x128) d_hz2, View.ld_unit_zero (S := S1x128) d_hz2, View.ld_unit_zero (S := S1) d_hz1]
  rw [d_iblk1_1, d_iblk1_2]
  refine funext fun (j : S5000x1.Idx) => ?_
  obtain ⟨p, u, rfl⟩ : ∃ (p : Fin 5000) (u : Fin 1), j = ix2 p u := ⟨j 0, j 1, eq_ix2 j⟩
  show k1_pay1 (F := Ideal) (iblk1 V c 0 t) (V c main_arg8) (V c main_arg9) (ix2 p u)
    = Cert.Spec.head (V c main_v45) (V c main_arg8) (V c main_arg9) (((cfg1.win 3).blk t).view.emb (ix2 p u) (0 : Fin 2))
  refine (PayVal.pay3_apply _ _ _ p u).trans ?_
  refine (d_head_blk V c t p).trans ?_
  exact congrArg (Cert.Spec.head (V c main_v45) (V c main_arg8) (V c main_arg9)) (d_emb3 t p u).symm

/-- An index of the output array is in point t's block iff each coordinate is in the block's range on its axis. -/
theorem d_mem_blk3 (t : Fin cfg1.N) (i : S50000x1.Idx) :
    i ∈ ((cfg1.win 3).blk t).view.set ↔ ∀ a : Fin 2, win1_3.index t a * S5000x1.size a ≤ (i a).val ∧ (i a).val < win1_3.index t a * S5000x1.size a + S5000x1.size a := by
  show i ∈ ((View.whole main_v46).slice (win1_3.rect t)).set ↔ _
  rw [View.set_slice_whole, Rect.mem_set_unit]
  exact Iff.rfl

/-- Every row of the output array is in the block of the point r / 5000. -/
theorem d_cover3 (i : S50000x1.Idx) : ∃ t : Fin cfg1.N, (cfg1.win 3).flush t = true ∧ i ∈ ((cfg1.win 3).blk t).view.set := by
  have hi0 : (i 0).val < 50000 := (i 0).isLt
  have hi1 : (i 1).val < 1 := (i 1).isLt
  have hN : cfg1.N = 10 := N_1
  let t : Fin cfg1.N := ⟨(i 0).val / 5000, by rw [hN]; omega⟩
  have htv : t.val = (i 0).val / 5000 := rfl
  obtain ⟨e0, e1, e2, e3, e4, e5, e6⟩ := d_idx_facts t
  refine ⟨t, flush1_3 t, ?_⟩
  rw [d_mem_blk3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 1 ≤ (i 1).val ∧ (i 1).val < win1_3.index t (1 : Fin 2) * 1 + 1; omega

/-- The array the head region leaves in main_v46. -/
theorem final1 (c : Dev nD) : (dat1 (F := Ideal) V c).arrAt 3 cfg1.N = G1 V c :=
  (dat1 (F := Ideal) V c).arrAt_eq_of_cover 3 (G1 V c) (fun t _ => d_flushed3_eq V c t) d_cover3

end Cert.KernelIdeal.Arr1

end
-- ==== Proof.Agg.lean ====
/-
  The graph aggregation both programs apply to the transformed node features `xt`: self loops of weight one are added
  to the edge list, each edge's weight is scaled by the inverse square roots of its two endpoints' weighted degrees
  (zero where the degree is not positive), every edge's source row of `xt` is scaled by that coefficient, and the rows
  are summed into their target nodes. It is carried as ONE function of `xt`, the edge index and the edge weights:
  neither program's proof opens it.
-/
import proofs.«139222_j88948772700690_1_alg».proof.Proof.Gen.ReferenceIdeal.Read

noncomputable section

namespace Cert.ReferenceIdeal.RefVal

open Cert.ReferenceIdeal Cert.ReferenceIdeal.Read Idealize.ShloMosaic

variable {F : FTy → Type} [FloatOps F]

/-- The aggregation of `xt` over the edges `x1` with weights `x2`. -/
def agg (xt : (⟨S50000x128, .f32⟩ : BufTy).Contents (Elt F)) (x1 : (⟨S2x600000, .i32⟩ : BufTy).Contents (Elt F))
    (x2 : (⟨S600000, .f32⟩ : BufTy).Contents (Elt F)) : (⟨S50000x128, .f32⟩ : BufTy).Contents (Elt F) :=
  Host.scatterAdd scatter_S50000x128_S650000x1_S650000x128_1_0_0_1 (val_main_v82 (F := F)) (val_main_v83 (F := F) x1)
    (mulf (Host.gather gather_S50000x128_S650000x1_S650000x128_1_0_n_n_0_1_1128 xt (val_main_v77 (F := F) x1))
      (val_main_v80 (F := F) x1 x2))

/-- The reference's aggregated features are the aggregation of its transformed features. -/
theorem v84_eq (x0 : (⟨S50000x128, .f32⟩ : BufTy).Contents (Elt F)) (x1 : (⟨S2x600000, .i32⟩ : BufTy).Contents (Elt F))
    (x2 : (⟨S600000, .f32⟩ : BufTy).Contents (Elt F)) (x3 : (⟨S128x128, .f32⟩ : BufTy).Contents (Elt F))
    (x4 x5 : (⟨S384x128, .f32⟩ : BufTy).Contents (Elt F)) (x6 x7 : (⟨S384, .f32⟩ : BufTy).Contents (Elt F)) :
    val_main_v84 (F := F) x0 x1 x2 x3 x4 x5 x6 x7 = agg (val_main_v71 (F := F) x0 x3 x4 x5 x6 x7) x1 x2 := rfl

end Cert.ReferenceIdeal.RefVal

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.HostVal.lean ====
/-
  The host computation between the two tiled stages, read back from the kernel program's buffers: whatever the
  buffers hold before it, afterwards the aggregated-features buffer holds the graph aggregation of the transformed
  features, the edge index and the edge weights found in their buffers. It is read stretch by stretch: the edge lists
  with the self loops and the degrees; the degree coefficients; the edge coefficients, the scaled source rows and their
  sums per target node. Each stretch's result is stated over an arbitrary valuation of the buffers it reads.
-/
import proofs.«139222_j88948772700690_1_alg».proof.Proof.Gen.KernelIdeal.Launch
import proofs.«139222_j88948772700690_1_alg».proof.Proof.Gen.KernelIdeal.Regions
import proofs.«139222_j88948772700690_1_alg».proof.Proof.Agg
import proofs.«139222_j88948772700690_1_alg».proof.Proof.LibCat
import Idealize.ShloMosaic.Lib.StableHlo.Run

noncomputable section

namespace Cert.KernelIdeal.HostVal

open Cert.KernelIdeal Cert.KernelIdeal.Gen Idealize.ShloMosaic Idealize.ShloMosaic.TcCoe Idealize.ShloMosaic.StableHlo

variable {F : FTy → Type} [FloatOps F]

/-! ## The first stretch: the edge lists with self loops, the degrees, their sign test and inverse square roots -/

/-- The first stretch leaves the transformed features alone. -/
theorem c_h1_v0 (W : Valuation τ sig (Elt F)) :
    StableHlo.after hostOps1 W (Proc.devRef .tc main_v0) = W (Proc.devRef .tc main_v0) :=
  StableHlo.after_of_writes_sub hostOps1 W hostOps1_writes (by decide)

/-- The source list: the edge index's row 0 followed by the self loops. -/
theorem c_h1_v4 (W : Valuation τ sig (Elt F)) :
    StableHlo.after hostOps1 W (Proc.devRef .tc main_v4)
      = Cert.ReferenceIdeal.Read.val_main_v41 (F := F) (W (Proc.devRef .tc main_arg1)) := by
  after_results_simp
  rfl

/-- The target list: the edge index's row 1 followed by the self loops. -/
theorem c_h1_v7 (W : Valuation τ sig (Elt F)) :
    StableHlo.after hostOps1 W (Proc.devRef .tc main_v7)
      = Cert.ReferenceIdeal.Read.val_main_v44 (F := F) (W (Proc.devRef .tc main_arg1)) := by
  after_results_simp
  rfl

/-- The weight list: the edge weights followed by ones. -/
theorem c_h1_v9 (W : Valuation τ sig (Elt F)) :
    StableHlo.after hostOps1 W (Proc.devRef .tc main_v9)
      = Cert.ReferenceIdeal.Read.val_main_v46 (F := F) (W (Proc.devRef .tc main_arg2)) := by
  after_results_simp
  rfl

/-- Where the weighted degree is positive. -/
theorem c_h1_v14 (W : Valuation τ sig (Elt F)) :
    StableHlo.after hostOps1 W (Proc.devRef .tc main_v14)
      = Cert.ReferenceIdeal.Read.val_main_v51 (F := F) (W (Proc.devRef .tc main_arg1)) (W (Proc.devRef .tc main_arg2)) := by
  after_results_simp
  rfl

/-- The inverse square roots of the weighted degrees. -/
theorem c_h1_v15 (W : Valuation τ sig (Elt F)) :
    StableHlo.after hostOps1 W (Proc.devRef .tc main_v15)
      = Cert.ReferenceIdeal.Read.val_main_v52 (F := F) (W (Proc.devRef .tc main_arg1)) (W (Proc.devRef .tc main_arg2)) := by
  after_results_simp
  rfl

/-- The zero that replaces the coefficient of a node without positive degree. -/
theorem c_h1_cst_2 (W : Valuation τ sig (Elt F)) :
    StableHlo.after hostOps1 W (Proc.devRef .tc main_cst_2)
      = Cert.ReferenceIdeal.Read.val_main_cst_7 (F := F) := by
  after_results_simp
  rfl

/-! ## The second stretch: the degree coefficients, zero where the degree is not positive -/

/-- The coefficient of a node: the inverse square root of its degree where that is positive, zero elsewhere. -/
theorem c_h2_v16 (V : Valuation τ sig (Elt F)) :
    StableHlo.after hostOps1_1 V (Proc.devRef .tc main_v16)
      = select (V (Proc.devRef .tc main_v14)) (V (Proc.devRef .tc main_v15))
          (broadcastInDim S50000 ![] bcast_S_S50000 (V (Proc.devRef .tc main_cst_2))) := by
  after_results_simp
  rfl

/-! ## The third stretch: the normalised edge coefficients, the scaled source rows, their sums per target node -/

/-- An index list with its negative entries moved up by the number of nodes, as a column. -/
def c_norm (v : (⟨S650000, .i32⟩ : BufTy).Contents (Elt F)) : (⟨S650000x1, .i32⟩ : BufTy).Contents (Elt F) :=
  broadcastInDim S650000x1 ![0] bcast_S650000_S650000x1_0
    (select (cmpi .slt v (broadcastInDim S650000 ![] bcast_S_S650000 (constantI S_ 32 0#32)))
      (addi v (broadcastInDim S650000 ![] bcast_S_S650000 (constantI S_ 32 50000#32))) v)

/-- The aggregation from the source list, the target list, the weight list and the degree coefficients. -/
def c_agg (xt : (⟨S50000x128, .f32⟩ : BufTy).Contents (Elt F)) (src tgt : (⟨S650000, .i32⟩ : BufTy).Contents (Elt F))
    (w : (⟨S650000, .f32⟩ : BufTy).Contents (Elt F)) (d : (⟨S50000, .f32⟩ : BufTy).Contents (Elt F)) :
    (⟨S50000x128, .f32⟩ : BufTy).Contents (Elt F) :=
  Host.scatterAdd scatter_S50000x128_S650000x1_S650000x128_1_0_0_1
    (broadcastInDim S50000x128 ![] bcast_S_S50000x128 (constant S_ .f32 0x00000000#32))
    (broadcastInDim S650000x1 ![0] bcast_S650000_S650000x1_0 tgt)
    (mulf (Host.gather gather_S50000x128_S650000x1_S650000x128_1_0_n_n_0_1_1128 xt (c_norm src))
      (broadcastInDim S650000x128 ![0, 1] bcast_S650000x1_S650000x128_0_1
        (broadcastInDim S650000x1 ![0] bcast_S650000_S650000x1_0
          (mulf (mulf (Host.gather gather_S50000_S650000x1_S650000_n_0_n_n_0_1_1 d (c_norm src)) w)
            (Host.gather gather_S50000_S650000x1_S650000_n_0_n_n_0_1_1 d (c_norm tgt))))))

theorem c_h3_v45 (V : Valuation τ sig (Elt F)) :
    StableHlo.after hostOps1_2 V (Proc.devRef .tc main_v45)
      = c_agg (V (Proc.devRef .tc main_v0)) (V (Proc.devRef .tc main_v4)) (V (Proc.devRef .tc main_v7))
          (V (Proc.devRef .tc main_v9)) (V (Proc.devRef .tc main_v16)) := by
  after_results_simp
  first | rfl | fail "h3 rfl"

/-! ## The three stretches together -/

/-- After the first two stretches the transformed features, the three lists and the degree coefficients are the
    reference's stages at the edge index and the edge weights. -/
theorem c_h12_v0 (W : Valuation τ sig (Elt F)) :
    StableHlo.after hostOps1_1 (StableHlo.after hostOps1 W) (Proc.devRef .tc main_v0) = W (Proc.devRef .tc main_v0) :=
  (StableHlo.after_of_writes_sub hostOps1_1 _ hostOps1_1_writes (by decide)).trans (c_h1_v0 W)
theorem c_h12_v4 (W : Valuation τ sig (Elt F)) :
    StableHlo.after hostOps1_1 (StableHlo.after hostOps1 W) (Proc.devRef .tc main_v4)
      = Cert.ReferenceIdeal.Read.val_main_v41 (F := F) (W (Proc.devRef .tc main_arg1)) :=
  (StableHlo.after_of_writes_sub hostOps1_1 _ hostOps1_1_writes (by decide)).trans (c_h1_v4 W)
theorem c_h12_v7 (W : Valuation τ sig (Elt F)) :
    StableHlo.after hostOps1_1 (StableHlo.after hostOps1 W) (Proc.devRef .tc main_v7)
      = Cert.ReferenceIdeal.Read.val_main_v44 (F := F) (W (Proc.devRef .tc main_arg1)) :=
  (StableHlo.after_of_writes_sub hostOps1_1 _ hostOps1_1_writes (by decide)).trans (c_h1_v7 W)
theorem c_h12_v9 (W : Valuation τ sig (Elt F)) :
    StableHlo.after hostOps1_1 (StableHlo.after hostOps1 W) (Proc.devRef .tc main_v9)
      = Cert.ReferenceIdeal.Read.val_main_v46 (F := F) (W (Proc.devRef .tc main_arg2)) :=
  (StableHlo.after_of_writes_sub hostOps1_1 _ hostOps1_1_writes (by decide)).trans (c_h1_v9 W)
theorem c_h12_v16 (W : Valuation τ sig (Elt F)) :
    StableHlo.after hostOps1_1 (StableHlo.after hostOps1 W) (Proc.devRef .tc main_v16)
      = Cert.ReferenceIdeal.Read.val_main_v53 (F := F) (W (Proc.devRef .tc main_arg1)) (W (Proc.devRef .tc main_arg2)) := by
  rw [c_h2_v16, c_h1_v14, c_h1_v15, c_h1_cst_2]
  rfl

/-- After the three host stretches the aggregated features are the aggregation of the transformed features found in main_v0. -/
theorem chain_eq (W : Valuation τ sig (Elt F)) :
    StableHlo.after hostOps1_2 (StableHlo.after hostOps1_1 (StableHlo.after hostOps1 W)) (Proc.devRef .tc main_v45)
      = Cert.ReferenceIdeal.RefVal.agg (W (Proc.devRef .tc main_v0)) (W (Proc.devRef .tc main_arg1)) (W (Proc.devRef .tc main_arg2)) := by
  rw [c_h3_v45, c_h12_v0, c_h12_v4, c_h12_v7, c_h12_v9, c_h12_v16]
  rfl

end Cert.KernelIdeal.HostVal

end
-- ==== Proof.RefVal.lean ====
import proofs.«139222_j88948772700690_1_alg».proof.Proof.Spec
import proofs.«139222_j88948772700690_1_alg».proof.Proof.LibPlainDot
import proofs.«139222_j88948772700690_1_alg».proof.Proof.LibKeepdims
import proofs.«139222_j88948772700690_1_alg».proof.Proof.Gen.ReferenceIdeal.Read
import proofs.«139222_j88948772700690_1_alg».proof.Proof.Agg
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.ReferenceIdeal.RefVal

open Cert.ReferenceIdeal Cert.ReferenceIdeal.Read Idealize.ShloMosaic Idealize.ShloMosaic.ValueIdx

/-- The word of 1.0 denotes the extended real 1. -/
theorem b_one_word : Ideal.ofBits .f32 0x3F800000#32 = 1 := IdealRules.sign_bit.ideal_onePat .f32

/-- The spelt-out sigmoid 1 / (1 + exp (-v)), both ones the word of 1.0, is the logistic function. -/
theorem b_sigmoid (v : EReal) :
    FloatOps.hostDivf (F := Ideal) (φ := .f32) (FloatOps.ofBits .f32 0x3F800000#32)
        (FloatOps.addf (FloatOps.ofBits .f32 0x3F800000#32) (FloatOps.hostUnary .exp (FloatOps.hostNegf v)))
      = Ideal.logistic v := by
  show Ideal.div (Ideal.ofBits .f32 0x3F800000#32) (Ideal.ofBits .f32 0x3F800000#32 + Ideal.exp (-v)) = Ideal.div 1 (1 + Ideal.exp (-v))
  rw [b_one_word]

/-- The input-side gate pre-activation of the reference, at row r and column c of 384. -/
theorem b_v4_gate (x3 : (⟨S128x128, .f32⟩ : BufTy).Contents (Elt Ideal)) (x4 : (⟨S384x128, .f32⟩ : BufTy).Contents (Elt Ideal))
    (x6 : (⟨S384, .f32⟩ : BufTy).Contents (Elt Ideal)) (r : Fin 128) (c : Fin 384) :
    val_main_v4 (F := Ideal) x3 x4 x6 (ix2 r c) = Cert.Spec.gate x3 x4 x6 r c := by
  rw [val_main_v4_apply, val_main_v1_apply, val_main_v3_apply, val_main_v2_apply]
  unfold Cert.Spec.gate
  have e3 : idx_main_v2 (idx_main_v3 (ix2 r c)) = ix1 c := funext fun a => Fin.ext (by
    match a with
    | ⟨0, _⟩ => rfl)
  rw [e3]
  refine congrArg (· + x6 (ix1 c)) ?_
  refine Finset.sum_congr rfl fun k _ => ?_
  have e1 : lidx_main_v1 (ix2 r c) k = ix2 r k := funext fun a => Fin.ext (by
    match a with
    | ⟨0, _⟩ => rfl
    | ⟨1, _⟩ => rfl)
  have e2 : idx_main_v0 (ridx_main_v1 (ix2 r c) k) = ix2 c k := funext fun a => Fin.ext (by
    match a with
    | ⟨0, _⟩ => rfl
    | ⟨1, _⟩ => rfl)
  rw [val_main_v0_apply, e1, e2]

/-- The hidden-side gate pre-activation of the reference, at row r and column c of 384. -/
theorem b_v9_gate (x3 : (⟨S128x128, .f32⟩ : BufTy).Contents (Elt Ideal)) (x5 : (⟨S384x128, .f32⟩ : BufTy).Contents (Elt Ideal))
    (x7 : (⟨S384, .f32⟩ : BufTy).Contents (Elt Ideal)) (r : Fin 128) (c : Fin 384) :
    val_main_v9 (F := Ideal) x3 x5 x7 (ix2 r c) = Cert.Spec.gate x3 x5 x7 r c := by
  rw [val_main_v9_apply, val_main_v6_apply, val_main_v8_apply, val_main_v7_apply]
  unfold Cert.Spec.gate
  have e3 : idx_main_v7 (idx_main_v8 (ix2 r c)) = ix1 c := funext fun a => Fin.ext (by
    match a with
    | ⟨0, _⟩ => rfl)
  rw [e3]
  refine congrArg (· + x7 (ix1 c)) ?_
  refine Finset.sum_congr rfl fun k _ => ?_
  have e1 : lidx_main_v6 (ix2 r c) k = ix2 r k := funext fun a => Fin.ext (by
    match a with
    | ⟨0, _⟩ => rfl
    | ⟨1, _⟩ => rfl)
  have e2 : idx_main_v5 (ridx_main_v6 (ix2 r c) k) = ix2 c k := funext fun a => Fin.ext (by
    match a with
    | ⟨0, _⟩ => rfl
    | ⟨1, _⟩ => rfl)
  rw [val_main_v5_apply, e1, e2]

/-- The three column groups of a 128 x 384 gate matrix, read at (r, j): columns j, 128 + j and 256 + j. -/
theorem b_idx10 (r j : Fin 128) : idx_main_v10 (ix2 r j) = ix2 r (Cert.Spec.col 0 (by omega) j) := funext fun a => Fin.ext (by
  match a with
  | ⟨0, _⟩ => rfl
  | ⟨1, _⟩ => exact (Nat.zero_add _).symm)
theorem b_idx11 (r j : Fin 128) : idx_main_v11 (ix2 r j) = ix2 r (Cert.Spec.col 128 (by omega) j) := funext fun a => Fin.ext (by
  match a with
  | ⟨0, _⟩ => rfl
  | ⟨1, _⟩ => rfl)
theorem b_idx12 (r j : Fin 128) : idx_main_v12 (ix2 r j) = ix2 r (Cert.Spec.col 256 (by omega) j) := funext fun a => Fin.ext (by
  match a with
  | ⟨0, _⟩ => rfl
  | ⟨1, _⟩ => rfl)
theorem b_idx13 (r j : Fin 128) : idx_main_v13 (ix2 r j) = ix2 r (Cert.Spec.col 0 (by omega) j) := funext fun a => Fin.ext (by
  match a with
  | ⟨0, _⟩ => rfl
  | ⟨1, _⟩ => exact (Nat.zero_add _).symm)
theorem b_idx14 (r j : Fin 128) : idx_main_v14 (ix2 r j) = ix2 r (Cert.Spec.col 128 (by omega) j) := funext fun a => Fin.ext (by
  match a with
  | ⟨0, _⟩ => rfl
  | ⟨1, _⟩ => rfl)
theorem b_idx15 (r j : Fin 128) : idx_main_v15 (ix2 r j) = ix2 r (Cert.Spec.col 256 (by omega) j) := funext fun a => Fin.ext (by
  match a with
  | ⟨0, _⟩ => rfl
  | ⟨1, _⟩ => rfl)

/-- The reference's evolved weight is the evolved weight, entry by entry. -/
theorem v37_eq (x3 : (⟨S128x128, .f32⟩ : BufTy).Contents (Elt Ideal)) (x4 x5 : (⟨S384x128, .f32⟩ : BufTy).Contents (Elt Ideal))
    (x6 x7 : (⟨S384, .f32⟩ : BufTy).Contents (Elt Ideal)) :
    val_main_v37 (F := Ideal) x3 x4 x5 x6 x7 = Cert.Spec.evolved x3 x4 x5 x6 x7 := by
  funext i
  obtain ⟨r, j, rfl⟩ : ∃ (r j : Fin 128), i = ix2 r j := ⟨i 0, i 1, eq_ix2 i⟩
  rw [Cert.Spec.evolved_apply]
  unfold Cert.Spec.evolvedAt
  rw [val_main_v37_apply, val_main_v35_apply, val_main_v36_apply, val_main_v34_apply, val_main_v33_apply, val_main_cst_3_apply,
    val_main_v29_apply, val_main_v28_apply, val_main_cst_2_apply, val_main_v27_apply, val_main_v26_apply, val_main_cst_1_apply,
    val_main_v25_apply, val_main_v24_apply, val_main_v23_apply, val_main_v11_apply, val_main_v14_apply,
    val_main_v32_apply, val_main_v31_apply, val_main_v12_apply, val_main_v30_apply, val_main_v22_apply, val_main_v21_apply,
    val_main_cst_0_apply, val_main_v20_apply, val_main_v19_apply, val_main_cst_apply, val_main_v18_apply, val_main_v17_apply,
    val_main_v16_apply, val_main_v10_apply, val_main_v13_apply, val_main_v15_apply,
    b_idx10, b_idx11, b_idx12, b_idx13, b_idx14, b_idx15,
    b_v4_gate, b_v4_gate, b_v4_gate, b_v9_gate, b_v9_gate, b_v9_gate]
  simp only [b_sigmoid]
  rfl

/-- The reference's transformed features: row p of x against row q of the evolved weight. -/
theorem v71_apply (x0 : (⟨S50000x128, .f32⟩ : BufTy).Contents (Elt Ideal)) (x3 : (⟨S128x128, .f32⟩ : BufTy).Contents (Elt Ideal))
    (x4 x5 : (⟨S384x128, .f32⟩ : BufTy).Contents (Elt Ideal)) (x6 x7 : (⟨S384, .f32⟩ : BufTy).Contents (Elt Ideal))
    (p : Fin 50000) (q : Fin 128) :
    val_main_v71 (F := Ideal) x0 x3 x4 x5 x6 x7 (ix2 p q) = Cert.Spec.rowsDot x0 (val_main_v37 (F := Ideal) x3 x4 x5 x6 x7) p q := by
  rw [val_main_v71_apply]
  unfold Cert.Spec.rowsDot
  refine Finset.sum_congr rfl fun k _ => ?_
  rw [val_main_v70_apply]
  have e1 : lidx_main_v71 (ix2 p q) k = ix2 p k := funext fun a => Fin.ext (by
    match a with
    | ⟨0, _⟩ => rfl
    | ⟨1, _⟩ => rfl)
  have e2 : idx_main_v70 (ridx_main_v71 (ix2 p q) k) = ix2 q k := funext fun a => Fin.ext (by
    match a with
    | ⟨0, _⟩ => rfl
    | ⟨1, _⟩ => rfl)
  rw [e1, e2]

/-- The reference's result: row p of the aggregated features rectified, weighted and summed, plus the bias. -/
theorem v90_apply (x0 : (⟨S50000x128, .f32⟩ : BufTy).Contents (Elt Ideal)) (x1 : (⟨S2x600000, .i32⟩ : BufTy).Contents (Elt Ideal))
    (x2 : (⟨S600000, .f32⟩ : BufTy).Contents (Elt Ideal)) (x3 : (⟨S128x128, .f32⟩ : BufTy).Contents (Elt Ideal))
    (x4 x5 : (⟨S384x128, .f32⟩ : BufTy).Contents (Elt Ideal)) (x6 x7 : (⟨S384, .f32⟩ : BufTy).Contents (Elt Ideal))
    (x8 : (⟨S1x128, .f32⟩ : BufTy).Contents (Elt Ideal)) (x9 : (⟨S1, .f32⟩ : BufTy).Contents (Elt Ideal)) (p : Fin 50000) (u : Fin 1) :
    val_main_v90 (F := Ideal) x0 x1 x2 x3 x4 x5 x6 x7 x8 x9 (ix2 p u)
      = Cert.Spec.head (val_main_v84 (F := Ideal) x0 x1 x2 x3 x4 x5 x6 x7) x8 x9 p := by
  rw [val_main_v90_apply, val_main_v87_apply, val_main_v89_apply, val_main_v88_apply]
  unfold Cert.Spec.head
  have e3 : idx_main_v88 (idx_main_v89 (ix2 p u)) = ix1 (0 : Fin 1) := funext fun a => Fin.ext (by
    match a with
    | ⟨0, _⟩ => rfl)
  rw [e3]
  refine congrArg (· + x9 (ix1 (0 : Fin 1))) ?_
  refine Finset.sum_congr rfl fun k _ => ?_
  have e1 : lidx_main_v87 (ix2 p u) k = ix2 p k := funext fun a => Fin.ext (by
    match a with
    | ⟨0, _⟩ => rfl
    | ⟨1, _⟩ => rfl)
  have e2 : idx_main_v86 (ridx_main_v87 (ix2 p u) k) = ix2 (0 : Fin 1) k := funext fun a => Fin.ext (by
    match a with
    | ⟨0, _⟩ => exact Nat.lt_one_iff.mp u.isLt
    | ⟨1, _⟩ => rfl)
  rw [val_main_v85_apply, val_main_v86_apply, val_main_call1_v0_apply, val_main_call1_cst_apply, e1, e2]
  rfl

end Cert.ReferenceIdeal.RefVal

end
-- ==== Proof.Final.lean ====
/-
  The two programs' results are one function of the ten argument arrays: the evolved weight, the node features times
  its transpose, the shared graph aggregation of that product, and the rectified weighted row sums plus the bias.
  The reference's last stage is that function by its stages read at an index; the kernel program's result array is
  that function through the first region's array, the host stretches in between, and the head region's array.
-/
import proofs.«139222_j88948772700690_1_alg».proof.Proof.Run
import proofs.«139222_j88948772700690_1_alg».proof.Proof.Arrays0
import proofs.«139222_j88948772700690_1_alg».proof.Proof.Arrays1
import proofs.«139222_j88948772700690_1_alg».proof.Proof.HostVal
import proofs.«139222_j88948772700690_1_alg».proof.Proof.RefVal
import proofs.«139222_j88948772700690_1_alg».proof.Proof.Agg

set_option maxRecDepth 16384

noncomputable section

namespace Cert.Final

open Idealize.ShloMosaic Idealize.ShloMosaic.TcCoe Idealize.ShloMosaic.ValueIdx Idealize.SL.Sem

section Reference

open Cert.ReferenceIdeal Cert.ReferenceIdeal.Read Cert.ReferenceIdeal.RefVal

/-- The transformed features: row `j 0` of `x` against row `j 1` of the evolved weight. -/
def xt (x0 : (⟨S50000x128, .f32⟩ : BufTy).Contents (Elt Ideal)) (x3 : (⟨S128x128, .f32⟩ : BufTy).Contents (Elt Ideal))
    (x4 x5 : (⟨S384x128, .f32⟩ : BufTy).Contents (Elt Ideal)) (x6 x7 : (⟨S384, .f32⟩ : BufTy).Contents (Elt Ideal)) :
    (⟨S50000x128, .f32⟩ : BufTy).Contents (Elt Ideal) :=
  fun j => Cert.Spec.rowsDot x0 (Cert.Spec.evolved x3 x4 x5 x6 x7) (j 0) (j 1)

/-- The result both programs compute. -/
def result (x0 : (⟨S50000x128, .f32⟩ : BufTy).Contents (Elt Ideal)) (x1 : (⟨S2x600000, .i32⟩ : BufTy).Contents (Elt Ideal))
    (x2 : (⟨S600000, .f32⟩ : BufTy).Contents (Elt Ideal)) (x3 : (⟨S128x128, .f32⟩ : BufTy).Contents (Elt Ideal))
    (x4 x5 : (⟨S384x128, .f32⟩ : BufTy).Contents (Elt Ideal)) (x6 x7 : (⟨S384, .f32⟩ : BufTy).Contents (Elt Ideal))
    (x8 : (⟨S1x128, .f32⟩ : BufTy).Contents (Elt Ideal)) (x9 : (⟨S1, .f32⟩ : BufTy).Contents (Elt Ideal)) :
    (⟨S50000x1, .f32⟩ : BufTy).Contents (Elt Ideal) :=
  fun i => Cert.Spec.head (agg (F := Ideal) (xt x0 x3 x4 x5 x6 x7) x1 x2) x8 x9 (i 0)

/-- The reference's transformed features are `xt`. -/
theorem v71_eq (x0 : (⟨S50000x128, .f32⟩ : BufTy).Contents (Elt Ideal)) (x3 : (⟨S128x128, .f32⟩ : BufTy).Contents (Elt Ideal))
    (x4 x5 : (⟨S384x128, .f32⟩ : BufTy).Contents (Elt Ideal)) (x6 x7 : (⟨S384, .f32⟩ : BufTy).Contents (Elt Ideal)) :
    val_main_v71 (F := Ideal) x0 x3 x4 x5 x6 x7 = xt x0 x3 x4 x5 x6 x7 := by
  funext j
  obtain ⟨p, q, rfl⟩ : ∃ (p : Fin 50000) (q : Fin 128), j = ix2 p q := ⟨j 0, j 1, eq_ix2 j⟩
  rw [v71_apply, v37_eq]; rfl

/-- The reference's result is `result` of its arguments. -/
theorem ref_eq (x0 : (⟨S50000x128, .f32⟩ : BufTy).Contents (Elt Ideal)) (x1 : (⟨S2x600000, .i32⟩ : BufTy).Contents (Elt Ideal))
    (x2 : (⟨S600000, .f32⟩ : BufTy).Contents (Elt Ideal)) (x3 : (⟨S128x128, .f32⟩ : BufTy).Contents (Elt Ideal))
    (x4 x5 : (⟨S384x128, .f32⟩ : BufTy).Contents (Elt Ideal)) (x6 x7 : (⟨S384, .f32⟩ : BufTy).Contents (Elt Ideal))
    (x8 : (⟨S1x128, .f32⟩ : BufTy).Contents (Elt Ideal)) (x9 : (⟨S1, .f32⟩ : BufTy).Contents (Elt Ideal)) :
    val_main_v90 (F := Ideal) x0 x1 x2 x3 x4 x5 x6 x7 x8 x9 = result x0 x1 x2 x3 x4 x5 x6 x7 x8 x9 := by
  funext i
  obtain ⟨p, u, rfl⟩ : ∃ (p : Fin 50000) (u : Fin 1), i = ix2 p u := ⟨i 0, i 1, eq_ix2 i⟩
  rw [v90_apply, v84_eq, v71_eq]; rfl

end Reference

section Kernel

open Cert.KernelIdeal Cert.KernelIdeal.Gen Cert.KernelIdeal.Hand

variable (m : (ℓ : Loc nD τ sig) → Buf (Elt Ideal) ℓ) (ρ : Dev nD → PrngReg)

/-- The kernel program's result array at the last boundary is `result` of its arguments. -/
theorem kernel_result (c : Dev nD) :
    B5 m ρ c (Proc.devRef .tc main_v46)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have hv0 : B1 m ρ c (Proc.devRef .tc main_v0) = xt (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) :=
    (B1_arr m ρ c 6).trans ((Cert.KernelIdeal.Arr0.final0 (E0 m ρ) c).trans rfl)
  have h1 : B1 m ρ c (Proc.devRef .tc main_arg1) = m ((c : Thread nD τ).loc main_arg1) := B1_of_ne m ρ c main_arg1 (by decide)
  have h2 : B1 m ρ c (Proc.devRef .tc main_arg2) = m ((c : Thread nD τ).loc main_arg2) := B1_of_ne m ρ c main_arg2 (by decide)
  have h45 : B4 m ρ c (Proc.devRef .tc main_v45)
      = Cert.ReferenceIdeal.RefVal.agg (F := Ideal) (xt (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) := by
    refine (Cert.KernelIdeal.HostVal.chain_eq (B1 m ρ c)).trans ?_
    rw [hv0, h1, h2]
  have h8 : B4 m ρ c (Proc.devRef .tc main_arg8) = m ((c : Thread nD τ).loc main_arg8) :=
    (keep m ρ c main_arg8 (by decide) (by decide) (by decide)).trans (B1_of_ne m ρ c main_arg8 (by decide))
  have h9 : B4 m ρ c (Proc.devRef .tc main_arg9) = m ((c : Thread nD τ).loc main_arg9) :=
    (keep m ρ c main_arg9 (by decide) (by decide) (by decide)).trans (B1_of_ne m ρ c main_arg9 (by decide))
  refine (B5_arr m ρ c 3).trans ((Cert.KernelIdeal.Arr1.final1 (E4 m ρ) c).trans ?_)
  funext i
  show Cert.Spec.head (B4 m ρ c (Proc.devRef .tc main_v45)) (B4 m ρ c (Proc.devRef .tc main_arg8)) (B4 m ρ c (Proc.devRef .tc main_arg9)) (i 0) = _
  rw [h45, h8, h9]; rfl

end Kernel

end Cert.Final

end
-- ==== Proof.lean ====
/-
  A Pallas program against its jnp reference, over the extended reals. The program evolves a 128 x 128 weight W by one
  gated-recurrent step (gates from W w_ihᵀ + b_ih and W w_hhᵀ + b_hh, W' = (1 − z) · n + z · W), multiplies the node
  features by W'ᵀ in ten blocks of 5000 rows, aggregates the product over the graph's edges (self loops added, each
  edge scaled by the inverse square roots of its endpoints' weighted degrees) with host operations, and in a second
  kernel rectifies each node's row, weights it, sums it and adds a bias, again in ten blocks. The reference computes the
  same with whole-array operations, its sigmoid spelt as 1 / (1 + e^(−v)), which on the extended reals is the logistic
  function the kernel applies. Entry by entry both results are
      (∑ₖ max(agg(x W'ᵀ)(p, k), 0) · w(0, k)) + b(0),
  with sums of products on both sides and the aggregation one shared function, so no law that needs finiteness is used
  and the precondition is never opened.

  The frames: each kernel program's run is written over its two regions and three host stretches (the first region keeps
  the evolved weight in a scratch buffer between its grid points: anything before the first point, W' after it), once,
  generically in the float instance, and read at the word-level and at the ideal instance; the reference's frame is its
  run with the result dropped. The ideal pass rewrote nothing, so the idealization claim is trivial.
-/
import proofs.«139222_j88948772700690_1_alg».proof.Defs
import proofs.«139222_j88948772700690_1_alg».proof.Proof.Gen.Kernel
import proofs.«139222_j88948772700690_1_alg».proof.Proof.Gen.KernelIdeal
import proofs.«139222_j88948772700690_1_alg».proof.Proof.Gen.ReferenceIdeal
import proofs.«139222_j88948772700690_1_alg».proof.Proof.Gen.ReferenceIdeal.Run
import proofs.«139222_j88948772700690_1_alg».proof.Proof.Gen.ReferenceIdeal.Read
import proofs.«139222_j88948772700690_1_alg».proof.Proof.Gen.Pre_finite_inputs
import proofs.«139222_j88948772700690_1_alg».proof.Proof.Run
import proofs.«139222_j88948772700690_1_alg».proof.Proof.KRun
import proofs.«139222_j88948772700690_1_alg».proof.Proof.Final
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with their result arrays at one function of the arguments, which agree. -/
theorem algebraic : Cert.algebraic_KernelIdeal_ReferenceIdeal := by
  intro m ρ m' ρ' _ hagree
  refine ⟨fun c => Cert.Final.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c _ (Cert.KernelIdeal.Hand.mem_ucr Cert.KernelIdeal.main_v46 (by decide))).trans (Cert.Final.kernel_result m ρ c),
       (h c _ (Cert.KernelIdeal.Hand.mem_ucr Cert.KernelIdeal.main_arg0 (by decide))).trans (Cert.KernelIdeal.Hand.B5_main_arg0 m ρ c),
       (h c _ (Cert.KernelIdeal.Hand.mem_ucr Cert.KernelIdeal.main_arg1 (by decide))).trans (Cert.KernelIdeal.Hand.B5_main_arg1 m ρ c),
       (h c _ (Cert.KernelIdeal.Hand.mem_ucr Cert.KernelIdeal.main_arg2 (by decide))).trans (Cert.KernelIdeal.Hand.B5_main_arg2 m ρ c),
       (h c _ (Cert.KernelIdeal.Hand.mem_ucr Cert.KernelIdeal.main_arg3 (by decide))).trans (Cert.KernelIdeal.Hand.B5_main_arg3 m ρ c),
       (h c _ (Cert.KernelIdeal.Hand.mem_ucr Cert.KernelIdeal.main_arg4 (by decide))).trans (Cert.KernelIdeal.Hand.B5_main_arg4 m ρ c),
       (h c _ (Cert.KernelIdeal.Hand.mem_ucr Cert.KernelIdeal.main_arg5 (by decide))).trans (Cert.KernelIdeal.Hand.B5_main_arg5 m ρ c),
       (h c _ (Cert.KernelIdeal.Hand.mem_ucr Cert.KernelIdeal.main_arg6 (by decide))).trans (Cert.KernelIdeal.Hand.B5_main_arg6 m ρ c),
       (h c _ (Cert.KernelIdeal.Hand.mem_ucr Cert.KernelIdeal.main_arg7 (by decide))).trans (Cert.KernelIdeal.Hand.B5_main_arg7 m ρ c),
       (h c _ (Cert.KernelIdeal.Hand.mem_ucr Cert.KernelIdeal.main_arg8 (by decide))).trans (Cert.KernelIdeal.Hand.B5_main_arg8 m ρ c),
       (h c _ (Cert.KernelIdeal.Hand.mem_ucr Cert.KernelIdeal.main_arg9 (by decide))).trans (Cert.KernelIdeal.Hand.B5_main_arg9 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v90_eq, Cert.Final.ref_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
